-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4 : Shape := ⟨2, ![4096, 4]⟩
abbrev S4096x1024 : Shape := ⟨2, ![4096, 1024]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4 : S_.BroadcastsInDim S4096x4 (![] : Fin 0 → Fin S4096x4.rank)
  reducesTo_S4096x4_S_d0_1 : S4096x4.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg5 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg5
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x2048x4096 .f32) (main_arg1 : FVec F S4096x4 .f32) (main_arg2 : IVec S4096x1024 32) (main_arg3 : FVec F S4096 .f32) (main_arg4 : FVec F S4096 .f32) (main_arg5 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4 .f32 := Host.absf main_arg1
  let main_cst_0 : FVec F S_ .f32 := constant S_ .f32 0x7F800000#32
  let main_v5 : FVec F S4096x4 .f32 := broadcastInDim S4096x4 ![] bcast_S_S4096x4 main_cst_0
  let main_v6 : IVec S4096x4 1 := cmpf .olt main_v4 main_v5
  let main_c_1 : IVec S_ 1 := constantI S_ 1 1#1
  let main_v7 : IVec S_ 1 := (fun x v => Host.reduce IntOp.andi x v reducesTo_S4096x4_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg5 main_v13 main_v16
-- ==== Kernel.lean ====
abbrev S4x2048x4096 : Shape := ⟨3, ![4, 2048, 4096]⟩
abbrev S4096x4 : Shape := ⟨2, ![4096, 4]⟩
abbrev S4096x1024 : Shape := ⟨2, ![4096, 1024]⟩
abbrev S4096 : Shape := ⟨1, ![4096]⟩
abbrev S_ : Shape := ⟨0, ![]⟩
abbrev S4096x1024x1 : Shape := ⟨3, ![4096, 1024, 1]⟩
abbrev S4096x1024x4 : Shape := ⟨3, ![4096, 1024, 4]⟩
abbrev S4096x4096 : Shape := ⟨2, ![4096, 4096]⟩
abbrev S4096x1 : Shape := ⟨2, ![4096, 1]⟩
abbrev S1x4096 : Shape := ⟨2, ![1, 4096]⟩
abbrev S8192x4096 : Shape := ⟨2, ![8192, 4096]⟩
abbrev S512x4096 : Shape := ⟨2, ![512, 4096]⟩
abbrev S1x2048 : Shape := ⟨2, ![1, 2048]⟩
abbrev S512x2048 : Shape := ⟨2, ![512, 2048]⟩
abbrev S2048x4096 : Shape := ⟨2, ![2048, 4096]⟩
abbrev S4 : Shape := ⟨1, ![4]⟩
abbrev S1 : Shape := ⟨1, ![1]⟩
abbrev S2048x1024 : Shape := ⟨2, ![2048, 1024]⟩
abbrev S512x1024 : Shape := ⟨2, ![512, 1024]⟩

abbrev nBuf : Space → Nat
  | .hbm => 27
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4096x4, .f32⟩
  | .hbm, ⟨2, _⟩ => ⟨S4096x1024, .i32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S_, .i32⟩
  | .hbm, ⟨7, _⟩ => ⟨S4096x1024, .i32⟩
  | .hbm, ⟨8, _⟩ => ⟨S4096x1024, .i1⟩
  | .hbm, ⟨9, _⟩ => ⟨S_, .i32⟩
  | .hbm, ⟨10, _⟩ => ⟨S4096x1024, .i32⟩
  | .hbm, ⟨11, _⟩ => ⟨S4096x1024, .i32⟩
  | .hbm, ⟨12, _⟩ => ⟨S4096x1024, .i32⟩
  | .hbm, ⟨13, _⟩ => ⟨S4096x1024x1, .i32⟩
  | .hbm, ⟨14, _⟩ => ⟨S4096x1024x4, .f32⟩
  | .hbm, ⟨15, _⟩ => ⟨S4096x4096, .f32⟩
  | .hbm, ⟨16, _⟩ => ⟨S4096x1, .f32⟩
  | .hbm, ⟨17, _⟩ => ⟨S4096x4096, .f32⟩
  | .hbm, ⟨18, _⟩ => ⟨S4096x4096, .f32⟩
  | .hbm, ⟨19, _⟩ => ⟨S1x4096, .f32⟩
  | .hbm, ⟨20, _⟩ => ⟨S4096x4096, .f32⟩
  | .hbm, ⟨21, _⟩ => ⟨S4096x4096, .f32⟩
  | .hbm, ⟨22, _⟩ => ⟨S4096x4096, .bf16⟩
  | .hbm, ⟨23, _⟩ => ⟨S1x4096, .f32⟩
  | .hbm, ⟨24, _⟩ => ⟨S8192x4096, .f32⟩
  | .hbm, ⟨25, _⟩ => ⟨S8192x4096, .f32⟩
  | .hbm, ⟨26, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S1x2048, .f32⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S2048x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c2048_i32 : BitVec 32 := 2048#32
  let v9 : BitVec 32 := Scalar.muli arg0 c2048_i32
  let c0_i32_7 : BitVec 32 := 0#32
  ![v9.toNat, 0]
def k0_off2 (i : grid0.Coords) : Fin 2 → Nat :=
  let arg0 : BitVec 32 := BitVec.ofNat 32 (i 0).val
  let c2048_i32 : BitVec 32 := 2048#32
  let v9 : BitVec 32 := Scalar.muli arg0 c2048_i32
  let c1024_i32_9 : BitVec 32 := 1024#32
  ![v9.toNat, 1024]
def k0_off3 (i : grid0.Coords) : Fin 2 → Nat :=
  let arg0 : BitVec 32 := BitVec.ofNat 32 (i 0).val
  let c2048_i32 : BitVec 32 := 2048#32
  let v9 : BitVec 32 := Scalar.muli arg0 c2048_i32
  let c2048_i32_12 : BitVec 32 := 2048#32
  ![v9.toNat, 2048]
def k0_off4 (i : grid0.Coords) : Fin 2 → Nat :=
  let arg0 : BitVec 32 := BitVec.ofNat 32 (i 0).val
  let c2048_i32 : BitVec 32 := 2048#32
  let v9 : BitVec 32 := Scalar.muli arg0 c2048_i32
  let c3072_i32_14 : BitVec 32 := 3072#32
  ![v9.toNat, 3072]
def k0_cond2 (i : grid0.Coords) : BitVec 1 :=
  let arg1 : BitVec 32 := BitVec.ofNat 32 (i 1).val
  let c0_i32_2 : BitVec 32 := 0#32
  let v6 : BitVec 1 := Scalar.cmpi .ne arg1 c0_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S4096x1024 : S_.BroadcastsInDim S4096x1024 (![] : Fin 0 → Fin S4096x1024.rank)
  bcast_S4096x1024_S4096x1024x1_0_1 : S4096x1024.BroadcastsInDim S4096x1024x1 (![0, 1] : Fin 2 → Fin S4096x1024x1.rank)
  shapeCasts_S4096x1024x4_S4096x4096 : S4096x1024x4.ShapeCasts S4096x4096
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bitsLt_bf16_f32 : FTy.bits .bf16 < FTy.bits .f32
  shapeCasts_S4096_S1x4096 : S4096.ShapeCasts S1x4096
  shapeCasts_S4x2048x4096_S8192x4096 : S4x2048x4096.ShapeCasts S8192x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4_S1_0 : ∀ a, (![0] : Fin 1 → Nat) a + S1.size a ≤ S4.size a
  squeezes_S1_S_ : S1.Squeezes S_
  inb_S2048x4096_S2048x1024_0_0 : ∀ a, (![0, 0] : Fin 2 → Nat) a + S2048x1024.size a ≤ S2048x4096.size a
  wordsbf16_S2048x4096_S2048x1024_0_0 : (Rect.unit (s := S2048x4096) ![0, 0] S2048x1024.size inb_S2048x4096_S2048x1024_0_0).WholeWords (EltTy.packing .bf16)
  inb_S4_S1_1 : ∀ a, (![1] : Fin 1 → Nat) a + S1.size a ≤ S4.size a
  inb_S2048x4096_S2048x1024_0_1024 : ∀ a, (![0, 1024] : Fin 2 → Nat) a + S2048x1024.size a ≤ S2048x4096.size a
  wordsbf16_S2048x4096_S2048x1024_0_1024 : (Rect.unit (s := S2048x4096) ![0, 1024] S2048x1024.size inb_S2048x4096_S2048x1024_0_1024).WholeWords (EltTy.packing .bf16)
  inb_S4_S1_2 : ∀ a, (![2] : Fin 1 → Nat) a + S1.size a ≤ S4.size a
  inb_S2048x4096_S2048x1024_0_2048 : ∀ a, (![0, 2048] : Fin 2 → Nat) a + S2048x1024.size a ≤ S2048x4096.size a
  wordsbf16_S2048x4096_S2048x1024_0_2048 : (Rect.unit (s := S2048x4096) ![0, 2048] S2048x1024.size inb_S2048x4096_S2048x1024_0_2048).WholeWords (EltTy.packing .bf16)
  inb_S4_S1_3 : ∀ a, (![3] : Fin 1 → Nat) a + S1.size a ≤ S4.size a
  inb_S2048x4096_S2048x1024_0_3072 : ∀ a, (![0, 3072] : Fin 2 → Nat) a + S2048x1024.size a ≤ S2048x4096.size a
  wordsbf16_S2048x4096_S2048x1024_0_3072 : (Rect.unit (s := S2048x4096) ![0, 3072] S2048x1024.size inb_S2048x4096_S2048x1024_0_3072).WholeWords (EltTy.packing .bf16)
  slices_S512x4096_o0_0_S512x1024 : S512x4096.Slices ![0, 0] S512x1024
  h_S2048x1024 : 0 < S2048x1024.numel
  slices_S512x4096_o0_1024_S512x1024 : S512x4096.Slices ![0, 1024] S512x1024
  slices_S512x4096_o0_2048_S512x1024 : S512x4096.Slices ![0, 2048] S512x1024
  slices_S512x4096_o0_3072_S512x1024 : S512x4096.Slices ![0, 3072] S512x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  inb_S2048x4096_S2048x4096_0_0 : ∀ a, (![0, 0] : Fin 2 → Nat) a + S2048x4096.size a ≤ S2048x4096.size a
  h_S2048x4096 : 0 < S2048x4096.numel
  shapeCasts_S8192x4096_S4x2048x4096 : S8192x4096.ShapeCasts S4x2048x4096
  gather_S4096x4_S4096x1024x1_S4096x1024x4_2_0_n_n_0_2_14_wf : GatherDims.WF S4096x4 S4096x1024x1 S4096x1024x4 [2] [0] [] [0] [] 2 ![1, 4]
  dot_S512x1024_S2048x1024_S512x2048_1_1_0_0_n_n_wf : DotDims.WF S512x1024 S2048x1024 S512x2048 [1] [1] [0] [0] [] []
  dot_S512x4096_S2048x4096_S512x2048_1_1_0_0_n_n_wf : DotDims.WF S512x4096 S2048x4096 S512x2048 [1] [1] [0] [0] [] []
  hcc0_scratch1 : 6 + S4.numel ≤ 10
  hrank0 : 0 < grid0.rank
  k0_off1_inb : ∀ i : grid0.Coords, ∀ (k0_h1 : k0_cond1 i = 1#1), ∀ a, (k0_off1 i) a + S2048x1024.size a ≤ S4096x4096.size a
  k0_off1_wordsbf16 : ∀ i : grid0.Coords, ∀ (k0_h1 : k0_cond1 i = 1#1), (Rect.unit (s := S4096x4096) (k0_off1 i) S2048x1024.size (k0_off1_inb i k0_h1)).WholeWords (EltTy.packing .bf16)
  k0_off2_inb : ∀ i : grid0.Coords, ∀ (k0_h1 : k0_cond1 i = 1#1), ∀ a, (k0_off2 i) a + S2048x1024.size a ≤ S4096x4096.size a
  k0_off2_wordsbf16 : ∀ i : grid0.Coords, ∀ (k0_h1 : k0_cond1 i = 1#1), (Rect.unit (s := S4096x4096) (k0_off2 i) S2048x1024.size (k0_off2_inb i k0_h1)).WholeWords (EltTy.packing .bf16)
  k0_off3_inb : ∀ i : grid0.Coords, ∀ (k0_h1 : k0_cond1 i = 1#1), ∀ a, (k0_off3 i) a + S2048x1024.size a ≤ S4096x4096.size a
  k0_off3_wordsbf16 : ∀ i : grid0.Coords, ∀ (k0_h1 : k0_cond1 i = 1#1), (Rect.unit (s := S4096x4096) (k0_off3 i) S2048x1024.size (k0_off3_inb i k0_h1)).WholeWords (EltTy.packing .bf16)
  k0_off4_inb : ∀ i : grid0.Coords, ∀ (k0_h1 : k0_cond1 i = 1#1), ∀ a, (k0_off4 i) a + S2048x1024.size a ≤ S4096x4096.size a
  k0_off4_wordsbf16 : ∀ i : grid0.Coords, ∀ (k0_h1 : k0_cond1 i = 1#1), (Rect.unit (s := S4096x4096) (k0_off4 i) S2048x1024.size (k0_off4_inb i k0_h1)).WholeWords (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_2 i = cc0_transform_2 i'
  hinb0_1 : ∀ (i : grid0.Coords) a, (cc0_transform_2 i a + 1) * S1x2048.size a ≤ S1x4096.size a
  hwx0_1 : ∀ i : grid0.Coords, EltTy.bits .f32 = 32 ∨ (Rect.block (s := S1x4096) S1x2048.size (cc0_transform_2 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_3 i = cc0_transform_3 i'
  hinb0_2 : ∀ (i : grid0.Coords) a, (cc0_transform_3 i a + 1) * S512x2048.size a ≤ S8192x4096.size a
  hwx0_2 : ∀ i : grid0.Coords, EltTy.bits .f32 = 32 ∨ (Rect.block (s := S8192x4096) S512x2048.size (cc0_transform_3 i) (hinb0_2 i)).WholeWords (EltTy.packing .f32)

variable [Facts₀]

abbrev cc0_scratch1 : DmaSems sig S4 := SemArray.consecutive 6 S4 hcc0_scratch1
def gather_S4096x4_S4096x1024x1_S4096x1024x4_2_0_n_n_0_2_14 : GatherDims S4096x4 S4096x1024x1 S4096x1024x4 where
  offsetDims := [2]
  collapsedSliceDims := [0]
  operandBatchingDims := []
  startIndicesBatchingDims := []
  startIndexMap := [0]
  indexVectorDim := 2
  sliceSizes := ![1, 4]
  wf := gather_S4096x4_S4096x1024x1_S4096x1024x4_2_0_n_n_0_2_14_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x4096_S2048x4096_S512x2048_1_1_0_0_n_n : DotDims S512x4096 S2048x4096 S512x2048 where
  lhsContracting := [1]
  rhsContracting := [1]
  lhsNonContracting := [0]
  rhsNonContracting := [0]
  lhsBatch := []
  rhsBatch := []
  wf := dot_S512x4096_S2048x4096_S512x2048_1_1_0_0_n_n_wf

abbrev win0_0 : Pipeline.Window sig grid0 :=
  Pipeline.Window.ofSpec (Memref.whole main_v16) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1x2048.size cc0_transform_2 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S512x2048.size cc0_transform_3 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4 : Shape := ⟨2, ![4096, 4]⟩
abbrev S4096x1024 : Shape := ⟨2, ![4096, 1024]⟩
abbrev S4096 : Shape := ⟨1, ![4096]⟩
abbrev S_ : Shape := ⟨0, ![]⟩
abbrev S4096x1024x1 : Shape := ⟨3, ![4096, 1024, 1]⟩
abbrev S4096x1024x4 : Shape := ⟨3, ![4096, 1024, 4]⟩
abbrev S4096x4096 : Shape := ⟨2, ![4096, 4096]⟩
abbrev S4096x1 : Shape := ⟨2, ![4096, 1]⟩
abbrev S1x4096 : Shape := ⟨2, ![1, 4096]⟩
abbrev S1x1x4096 : Shape := ⟨3, ![1, 1, 4096]⟩

abbrev nBuf : Space → Nat
  | .hbm => 26
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4, .f32⟩
  | .hbm, ⟨2, _⟩ => ⟨S4096x1024, .i32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S_, .i32⟩
  | .hbm, ⟨7, _⟩ => ⟨S4096x1024, .i32⟩
  | .hbm, ⟨8, _⟩ => ⟨S4096x1024, .i1⟩
  | .hbm, ⟨9, _⟩ => ⟨S_, .i32⟩
  | .hbm, ⟨10, _⟩ => ⟨S4096x1024, .i32⟩
  | .hbm, ⟨11, _⟩ => ⟨S4096x1024, .i32⟩
  | .hbm, ⟨12, _⟩ => ⟨S4096x1024, .i32⟩
  | .hbm, ⟨13, _⟩ => ⟨S4096x1024x1, .i32⟩
  | .hbm, ⟨14, _⟩ => ⟨S4096x1024x4, .f32⟩
  | .hbm, ⟨15, _⟩ => ⟨S4096x4096, .f32⟩
  | .hbm, ⟨16, _⟩ => ⟨S4096x1, .f32⟩
  | .hbm, ⟨17, _⟩ => ⟨S4096x4096, .f32⟩
  | .hbm, ⟨18, _⟩ => ⟨S4096x4096, .f32⟩
  | .hbm, ⟨19, _⟩ => ⟨S1x4096, .f32⟩
  | .hbm, ⟨20, _⟩ => ⟨S4096x4096, .f32⟩
  | .hbm, ⟨21, _⟩ => ⟨S4096x4096, .f32⟩
  | .hbm, ⟨22, _⟩ => ⟨S4x2048x4096, .f32⟩
  | .hbm, ⟨23, _⟩ => ⟨S1x1x4096, .f32⟩
  | .hbm, ⟨24, _⟩ => ⟨S4x2048x4096, .f32⟩
  | .hbm, ⟨25, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S4096x1024 : S_.BroadcastsInDim S4096x1024 (![] : Fin 0 → Fin S4096x1024.rank)
  bcast_S4096x1024_S4096x1024x1_0_1 : S4096x1024.BroadcastsInDim S4096x1024x1 (![0, 1] : Fin 2 → Fin S4096x1024x1.rank)
  shapeCasts_S4096x1024x4_S4096x4096 : S4096x1024x4.ShapeCasts S4096x4096
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S4096x4_S4096x1024x1_S4096x1024x4_2_0_n_n_0_2_14_wf : GatherDims.WF S4096x4 S4096x1024x1 S4096x1024x4 [2] [0] [] [0] [] 2 ![1, 4]
  dot_S4x2048x4096_S4096x4096_S4x2048x4096_2_1_01_0_n_n_wf : DotDims.WF S4x2048x4096 S4096x4096 S4x2048x4096 [2] [1] [0, 1] [0] [] []

variable [Facts₀]

def gather_S4096x4_S4096x1024x1_S4096x1024x4_2_0_n_n_0_2_14 : GatherDims S4096x4 S4096x1024x1 S4096x1024x4 where
  offsetDims := [2]
  collapsedSliceDims := [0]
  operandBatchingDims := []
  startIndicesBatchingDims := []
  startIndexMap := [0]
  indexVectorDim := 2
  sliceSizes := ![1, 4]
  wf := gather_S4096x4_S4096x1024x1_S4096x1024x4_2_0_n_n_0_2_14_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.KB.KitD.lean ====
/-
  The launch side of the weight-resident matmul, restated over the algebra that carries transfer counters.

  The kernel copies its half of the weight matrix from the array left in HBM into a scratch buffer by four
  transfers of its own, so its region invariant lives in the algebra `Pipeline.UD` (the pipeline's algebra beside
  the transfers' counters).  This module states, over that algebra: the program as host lines, the region, host
  lines; that the one line after the region (a reshape of the result) touches neither an array nor the weight
  matrix; that every argument array ends as launched; that the two staged inputs (the rows of `x` and the bias
  half) are found at their blocks at every grid point; and how the frame claim's post follows from a frame run.
-/
import proofs.«130494_j30803505447137_2_alg».proof.Proof.Gen.Kernel.Frame
import proofs.«130494_j30803505447137_2_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.FrameD

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The program is: the host lines that build the weight matrix and re-lay `x` and the bias, the region, and the
    reshape of the result. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The one array the body moves itself: the bf16 weight matrix, left in HBM. -/
def H0 : Finset (Ref sig .tc) := {main_v14}
theorem H0_sub : H0 ⊆ Pipeline.restRefs sig spec0 := by decide

/-- The reshape after the region reads the result array and writes its own buffer: it touches no weight. -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl
    all_goals intro b hb; simp only [H0, Finset.mem_insert, Finset.mem_singleton] at hb
    all_goals rcases hb with rfl <;>
      simp only [StableHlo.nullary_bufs, StableHlo.unary_bufs, StableHlo.binary_bufs, StableHlo.reshape_bufs, Finset.mem_insert, Finset.mem_singleton, not_or] <;> and_intros <;> exact StableHlo.devRef_ne_of_ne (by decide)

/-- A buffer that is no window's array and is not the reshape's result ends at what the region found in it. -/
theorem W_keep (dats : (p : Fin 1) → (c : Dev nD) → Dat τ (Elt F) Unit ℕ (Pipeline.UD sig nD τ) ℕ (cfgs p) c) (c : Dev nD)
    (b : Ref sig .tc) (hb : b ≠ main_v18) (hw : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne hb)),
    Pipeline.withArrays_of_ne _ c (V0 m c) _ b hw]

/-- The rows of `x` are found at their block at every grid point, fetched there or not. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The bias half is found at its block at every grid point: it is fetched at the first point of a half and stays. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The frame claim's post from a frame run: every argument array is neither a window's array nor written by a
    host line, so it ends as launched. -/
theorem frame_of (dats : (p : Fin 1) → (c : Dev nD) → Dat τ (Elt F) Unit ℕ (Pipeline.UD sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
     ⟨((h c).2 main_arg0 (Pipeline.mem_restRefs_of main_arg0 (by decide) (by decide))).trans ((W_keep m dats c main_arg0 (by decide) (by decide)).trans (V_main_arg0 m c)),
      ((h c).2 main_arg1 (Pipeline.mem_restRefs_of main_arg1 (by decide) (by decide))).trans ((W_keep m dats c main_arg1 (by decide) (by decide)).trans (V_main_arg1 m c)),
      ((h c).2 main_arg2 (Pipeline.mem_restRefs_of main_arg2 (by decide) (by decide))).trans ((W_keep m dats c main_arg2 (by decide) (by decide)).trans (V_main_arg2 m c)),
      ((h c).2 main_arg3 (Pipeline.mem_restRefs_of main_arg3 (by decide) (by decide))).trans ((W_keep m dats c main_arg3 (by decide) (by decide)).trans (V_main_arg3 m c)),
      ((h c).2 main_arg4 (Pipeline.mem_restRefs_of main_arg4 (by decide) (by decide))).trans ((W_keep m dats c main_arg4 (by decide) (by decide)).trans (V_main_arg4 m c)),
      ((h c).2 main_arg5 (Pipeline.mem_restRefs_of main_arg5 (by decide) (by decide))).trans ((W_keep m dats c main_arg5 (by decide) (by decide)).trans (V_main_arg5 m c))⟩) h

end Cert.Kernel.FrameD

end
-- ==== Proof.KB.Runs.lean ====
/-
  What the two cases of the body share.

  The grid has 2 × 16 points, walked in order: point `t` is row-tile `t % 16` of output half `t / 16`.  At the
  first tile of a half (`t % 16 = 0`) the body copies that half of the weight matrix — rows `2048·(t/16)` onward,
  in four column bands of 1024 — from HBM into its scratch buffer, each band by a transfer on a semaphore of its
  own, and multiplies band by band as the bands arrive; at every other tile it multiplies by the scratch buffer as
  the first tile of the half left it.  This module names the staging buffers at a point, the scratch buffer, the
  weight array in HBM, the four semaphores, and decides the two branch conditions over the grid.
-/
import proofs.«130494_j30803505447137_2_alg».proof.Proof.KB.KitD

set_option maxRecDepth 16384

noncomputable section

namespace Cert.Kernel.FrameD

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The first-tile branch is taken exactly at the points `t` with `t % 16 = 0`. -/
theorem hcond1 : ∀ t : Fin cfg0.N, k0_cond1 (grid0.coords t) = 1#1 ↔ t.val % 16 = 0 :=
  (by decide +kernel : ∀ t : Fin grid0.N, k0_cond1 (grid0.coords t) = 1#1 ↔ t.val % 16 = 0)
/-- The later-tile branch is taken exactly at the other points. -/
theorem hcond2 : ∀ t : Fin cfg0.N, k0_cond2 (grid0.coords t) = 1#1 ↔ ¬ t.val % 16 = 0 :=
  (by decide +kernel : ∀ t : Fin grid0.N, k0_cond2 (grid0.coords t) = 1#1 ↔ ¬ t.val % 16 = 0)

/-- No window is idle at any point: the body loads both inputs and stores the whole output tile in either case. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel

/-- One staging buffer of the output window, through which its contents are stated. -/
abbrev VO : View sig .tc .vmem S512x2048 .f32 := (Memref.whole cc0_stg2_0 : Memref sig .tc .vmem S512x2048 .f32).view
/-- Each window's current staging memref at point `t`, and its wholeness. -/
abbrev ms0 (t : Fin cfg0.N) : Memref sig .tc .vmem S512x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x2048 .f32 := win0_2.stage (cfg0.slots t 2)
abbrev hs2 (t : Fin cfg0.N) : (ms2 t).IsWhole := hstage0_2 ((cfg0.slots t 2).cast nbuf0_2)
/-- The scratch buffer that keeps a half of the weight matrix between points. -/
abbrev scM : Memref sig .tc .vmem S2048x4096 .bf16 := Memref.whole cc0_scratch0
abbrev VS : View sig .tc .vmem S2048x4096 .bf16 := scM.view
/-- The weight matrix in HBM, whole. -/
abbrev hbM : Memref sig .tc .hbm S4096x4096 .bf16 := Memref.whole main_v14
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The body's four semaphores, one per column band. -/
abbrev osem0 : Fin 4 → SemLoc sig := fun j => (![SemLoc.dma 6, SemLoc.dma 7, SemLoc.dma 8, SemLoc.dma 9] : Fin 4 → SemLoc sig) j
theorem ownSemFacts0 : Pipeline.OwnSemFacts spec0 osem0 := by decide
theorem ownSems0_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0) := by
  rw [Pipeline.ownSems0_eq_of_list c osem0 [0, 1, 2, 3] (by decide) (by decide)]; rfl
theorem hbmPts_eq (c : Dev nD) :
    (bigSep H0 (fun b => ((c : Thread nD τ).loc b) ↦{fullShare} V m c b) : sProp 𝕄) = iprop(hbPt c hbM (V m c main_v14)) := by
  rw [BI.bigSep_eq_bigSepL_of_eq [main_v14] (by decide) (by decide)]; rfl

/-- The region invariant between halves, conjunct by conjunct: the scratch at some contents, the generator
    register, the four semaphores at zero, the weight matrix whole as the region found it. -/
theorem PhiD_eq (c : Dev nD) :
    (Pipeline.ΦD osem0 spec0 H0 (V m) c : sProp 𝕄)
      = iprop(iprop((∃ d, owns (c : Thread nD τ) scM fullShare d)) ∗ (∃ r, prngReg c r) ∗ iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0) ∗ iprop(hbPt c hbM (V m c main_v14))) := by
  rw [Pipeline.ΦD_eq, scopedRest0_eq, ownSems0_eq, hbmPts_eq]; simp only [scM, owns_whole]; try rfl

end Cert.Kernel.FrameD

end
-- ==== Proof.KB.RunA.lean ====
/-
  The body at the first tile of a half (`t % 16 = 0`): four transfers, one per band of 1024 columns, copy rows
  `2048·p ..` of the weight matrix from HBM into the scratch buffer; each is waited for in turn, its band loaded
  and multiplied into the accumulator, and `x · Wᵀ + bias` is stored over the whole output tile.  All four
  transfers are in flight together, each into its own band of the scratch buffer and out of its own band of the
  weight rows, so each lends only its band.  When the body ends every transfer has been waited for: the weight
  matrix is whole again, the four semaphores are back at zero, and the scratch holds the four bands delivered.
-/
import proofs.«130494_j30803505447137_2_alg».proof.Proof.KB.Runs

set_option maxRecDepth 16384

noncomputable section

namespace Cert.Kernel.FrameD

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
/-- The piece the body's one store leaves in the output tile and the four bands the transfers deliver into the
    scratch, with the proof that on whole staging memrefs — the inputs at their contents, the output and the
    scratch at anything, the four semaphores at zero, the weight matrix whole at `fh` — the body runs to the
    continuation holding the inputs, the semaphores and the weight matrix as they were, the output and the
    scratch with their pieces written, and its waits recorded. -/
noncomputable def kernelRunA (c : Dev nD) (i : grid0.Coords) (arg2 : Memref sig .tc .vmem S512x4096 .f32) (harg2 : arg2.IsWhole) (arg4 : Memref sig .tc .vmem S1x2048 .f32) (harg4 : arg4.IsWhole) (arg5 : Memref sig .tc .vmem S512x2048 .f32) (harg5 : arg5.IsWhole) (arg6 : Memref sig .tc .vmem S2048x4096 .bf16) (harg6 : arg6.IsWhole)
    (hc1 : k0_cond1 i = 1#1) (hc2 : ¬ k0_cond2 i = 1#1)
    (x0 : Vec F S512x4096 .f32) (x1 : Vec F S1x2048 .f32) (fh : HbBuf (F := F) c hbM) :
    Σ' (L2 : List (View.Piece (Elt F) S512x2048 .f32)), { LS : List (View.Piece (Elt F) S2048x4096 .bf16) //
      ∀ (W : Waits sig Unit) (K : PUnit → sProp 𝕄),
        iprop(owns (c : Thread nD τ) arg2 fullShare x0 ∗ owns (c : Thread nD τ) arg4 fullShare x1 ∗ (∃ d, owns (c : Thread nD τ) arg5 fullShare d) ∗ (∃ d, owns (c : Thread nD τ) arg6 fullShare d)
            ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ hbPt c hbM fh ∗ owes (c : Thread nD τ) 0 W
            ∗ (iprop(owns (c : Thread nD τ) arg2 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)
                ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ hbPt c hbM fh ∗ (∃ W', owes (c : Thread nD τ) 0 W')) -∗ K ⟨⟩))
          ⊢ wp frame (wpE (defs₀ (F := F)) Variants.none c none) Set.univ (cc0__matmul_kernel i arg2 harg2 (Memref.whole main_v14) (Memref.isWhole_whole _) arg4 harg4 arg5 harg5 arg6 harg6 cc0_scratch1) K } := by
  refine ⟨?_, ?_, fun W K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%ds, %fs, -, HS⟩, Hq0, Hq1, Hq2, Hq3, Hh, HW, Hk⟩
    obtain rfl := harg2.eq_unread hf0; obtain rfl := harg4.eq_unread hf1
    set_option sl_exec.dmaWindow true in
    set_option sl_exec.dmaWindowSet true in
    sl_exec (disch := first | exact hc1 | exact hc2)
    sl_step
    iapply Hk
    isplitl [H0]
    · iexists _; isplitr; · ipureintro; exact harg2.read_unread _
      iexact H0
    isplitl [H1]
    · iexists _; isplitr; · ipureintro; exact harg4.read_unread _
      iexact H1
    isplitl [H2]; · iexists _; iexact H2
    isplitl [HS]; · iexists _; iexact HS
    isplitl [Hq0]; · iexact Hq0
    isplitl [Hq1]; · iexact Hq1
    isplitl [Hq2]; · iexact Hq2
    isplitl [Hq3]; · iexact Hq3
    isplitl [Hh]; · iexact Hh
    iexists _; iexact HW

end Cert.Kernel.FrameD

end
-- ==== Proof.KB.RunB.lean ====
/-
  The body at a later tile of a half (`t % 16 ≠ 0`): it loads the rows of `x`, the whole scratch buffer — the
  weight half the first tile of this half left there —, the bias half, and stores `x · Wᵀ + bias` over the whole
  output tile.  The scratch buffer is only read.
-/
import proofs.«130494_j30803505447137_2_alg».proof.Proof.KB.RunA

set_option maxRecDepth 16384

noncomputable section

namespace Cert.Kernel.FrameD

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The pieces the body's one store leaves in the output tile, with the proof that on whole staging memrefs — the
    inputs at their contents, the output at anything, the scratch at the contents `xs` — the body runs to the
    continuation holding the inputs and the scratch as they were and the output with its piece written. -/
noncomputable def kernelRunB (c : Dev nD) (i : grid0.Coords) (arg2 : Memref sig .tc .vmem S512x4096 .f32) (harg2 : arg2.IsWhole) (arg4 : Memref sig .tc .vmem S1x2048 .f32) (harg4 : arg4.IsWhole) (arg5 : Memref sig .tc .vmem S512x2048 .f32) (harg5 : arg5.IsWhole) (arg6 : Memref sig .tc .vmem S2048x4096 .bf16) (harg6 : arg6.IsWhole)
    (hc1 : ¬ k0_cond1 i = 1#1) (hc2 : k0_cond2 i = 1#1)
    (x0 : Vec F S512x4096 .f32) (x1 : Vec F S1x2048 .f32) (xs : Vec F S2048x4096 .bf16) :
    { L2 : List (View.Piece (Elt F) S512x2048 .f32) //
      ∀ (E : Set ℕ) (K : PUnit → sProp 𝕄),
        iprop(owns (c : Thread nD τ) arg2 fullShare x0 ∗ owns (c : Thread nD τ) arg4 fullShare x1 ∗ (∃ d, owns (c : Thread nD τ) arg5 fullShare d) ∗ owns (c : Thread nD τ) arg6 fullShare xs
            ∗ (iprop(owns (c : Thread nD τ) arg2 fullShare x0 ∗ owns (c : Thread nD τ) arg4 fullShare x1 ∗ (∃ f, arg5.view.loc (c : Thread nD τ) ↦[arg5.view.set]{fullShare} arg5.view.writes (Elt F) f L2) ∗ owns (c : Thread nD τ) arg6 fullShare xs) -∗ K ⟨⟩))
          ⊢ wp frame (wpE (defs₀ (F := F)) Variants.none c none) E (cc0__matmul_kernel i arg2 harg2 (Memref.whole main_v14) (Memref.isWhole_whole _) arg4 harg4 arg5 harg5 arg6 harg6 cc0_scratch1) K } := by
  refine ⟨?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg4.eq_unread hf1; obtain rfl := harg6.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg4.read_unread _
      iexact H1
    isplitl [H2]; · iexists _; iexact H2
    iexists _; isplitr; · ipureintro; exact harg6.read_unread _
    iexact HS

end Cert.Kernel.FrameD

end
-- ==== Proof.KB.Body.lean ====
/-
  The proof data of the region and the body obligation at every grid point.

  After point `t` the output tile's staging buffer holds what the case of `t` stored: at the first tile of a
  half, the product accumulated band by band over the weight rows just copied in; at a later tile, the product
  with the scratch buffer as the first tile of the same half left it.  Between points the region invariant holds
  the scratch buffer: at anything before the first tile of a half (positions 0, 16 and 32), and at the four
  delivered bands of that half's weight rows everywhere else.  The four semaphores are at zero and the weight
  matrix is whole at every position, since every transfer is waited for within its point.
-/
import proofs.«130494_j30803505447137_2_alg».proof.Proof.KB.RunB

set_option maxRecDepth 16384

noncomputable section

namespace Cert.Kernel.FrameD

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What each case leaves -/

theorem coverA (c : Dev nD) (i : grid0.Coords) (arg2 : Memref sig .tc .vmem S512x4096 .f32) (harg2 : arg2.IsWhole) (arg4 : Memref sig .tc .vmem S1x2048 .f32) (harg4 : arg4.IsWhole) (arg5 : Memref sig .tc .vmem S512x2048 .f32) (harg5 : arg5.IsWhole) (arg6 : Memref sig .tc .vmem S2048x4096 .bf16) (harg6 : arg6.IsWhole) (hc1 : k0_cond1 i = 1#1) (hc2 : ¬ k0_cond2 i = 1#1)
    (x0 : Vec F S512x4096 .f32) (x1 : Vec F S1x2048 .f32) (fh : HbBuf (F := F) c hbM) (y : S512x2048.Idx) :
    ∃ pc ∈ (kernelRunA c i arg2 harg2 arg4 harg4 arg5 harg5 arg6 harg6 hc1 hc2 x0 x1 fh).1, y ∈ pc.1.set :=
  View.cover_of_tiledL (kernelRunA c i arg2 harg2 arg4 harg4 arg5 harg5 arg6 harg6 hc1 hc2 x0 x1 fh).1 S512x2048.size (by sl_kernel_rfl) y

/-- The four bands delivered tile the scratch buffer. -/
theorem scoverA (c : Dev nD) (i : grid0.Coords) (arg2 : Memref sig .tc .vmem S512x4096 .f32) (harg2 : arg2.IsWhole) (arg4 : Memref sig .tc .vmem S1x2048 .f32) (harg4 : arg4.IsWhole) (arg5 : Memref sig .tc .vmem S512x2048 .f32) (harg5 : arg5.IsWhole) (arg6 : Memref sig .tc .vmem S2048x4096 .bf16) (harg6 : arg6.IsWhole) (hc1 : k0_cond1 i = 1#1) (hc2 : ¬ k0_cond2 i = 1#1)
    (x0 : Vec F S512x4096 .f32) (x1 : Vec F S1x2048 .f32) (fh : HbBuf (F := F) c hbM) (y : S2048x4096.Idx) :
    ∃ pc ∈ (kernelRunA c i arg2 harg2 arg4 harg4 arg5 harg5 arg6 harg6 hc1 hc2 x0 x1 fh).2.1, y ∈ pc.1.set :=
  View.cover_of_tiledL (kernelRunA c i arg2 harg2 arg4 harg4 arg5 harg5 arg6 harg6 hc1 hc2 x0 x1 fh).2.1 S2048x1024.size (by sl_kernel_rfl) y

/-- The output tile after a first tile of a half. -/
def outA (c : Dev nD) (i : grid0.Coords) (arg2 : Memref sig .tc .vmem S512x4096 .f32) (harg2 : arg2.IsWhole) (arg4 : Memref sig .tc .vmem S1x2048 .f32) (harg4 : arg4.IsWhole) (arg5 : Memref sig .tc .vmem S512x2048 .f32) (harg5 : arg5.IsWhole) (arg6 : Memref sig .tc .vmem S2048x4096 .bf16) (harg6 : arg6.IsWhole) (hc1 : k0_cond1 i = 1#1) (hc2 : ¬ k0_cond2 i = 1#1)
    (x0 : Vec F S512x4096 .f32) (x1 : Vec F S1x2048 .f32) (fh : HbBuf (F := F) c hbM) : Vec F S512x2048 .f32 :=
  VO.read (Elt F) (VO.writes (Elt F) VO.junk (kernelRunA c i arg2 harg2 arg4 harg4 arg5 harg5 arg6 harg6 hc1 hc2 x0 x1 fh).1)

/-- The scratch buffer after a first tile of a half. -/
def soutA (c : Dev nD) (i : grid0.Coords) (arg2 : Memref sig .tc .vmem S512x4096 .f32) (harg2 : arg2.IsWhole) (arg4 : Memref sig .tc .vmem S1x2048 .f32) (harg4 : arg4.IsWhole) (arg5 : Memref sig .tc .vmem S512x2048 .f32) (harg5 : arg5.IsWhole) (arg6 : Memref sig .tc .vmem S2048x4096 .bf16) (harg6 : arg6.IsWhole) (hc1 : k0_cond1 i = 1#1) (hc2 : ¬ k0_cond2 i = 1#1)
    (x0 : Vec F S512x4096 .f32) (x1 : Vec F S1x2048 .f32) (fh : HbBuf (F := F) c hbM) : Vec F S2048x4096 .bf16 :=
  VS.read (Elt F) (VS.writes (Elt F) VS.junk (kernelRunA c i arg2 harg2 arg4 harg4 arg5 harg5 arg6 harg6 hc1 hc2 x0 x1 fh).2.1)

theorem coverB (c : Dev nD) (i : grid0.Coords) (arg2 : Memref sig .tc .vmem S512x4096 .f32) (harg2 : arg2.IsWhole) (arg4 : Memref sig .tc .vmem S1x2048 .f32) (harg4 : arg4.IsWhole) (arg5 : Memref sig .tc .vmem S512x2048 .f32) (harg5 : arg5.IsWhole) (arg6 : Memref sig .tc .vmem S2048x4096 .bf16) (harg6 : arg6.IsWhole) (hc1 : ¬ k0_cond1 i = 1#1) (hc2 : k0_cond2 i = 1#1)
    (x0 : Vec F S512x4096 .f32) (x1 : Vec F S1x2048 .f32) (xs : Vec F S2048x4096 .bf16) (y : S512x2048.Idx) :
    ∃ pc ∈ (kernelRunB c i arg2 harg2 arg4 harg4 arg5 harg5 arg6 harg6 hc1 hc2 x0 x1 xs).1, y ∈ pc.1.set :=
  View.cover_of_tiledL (kernelRunB c i arg2 harg2 arg4 harg4 arg5 harg5 arg6 harg6 hc1 hc2 x0 x1 xs).1 S512x2048.size (by sl_kernel_rfl) y

/-- The output tile after a later tile of a half, the scratch at `xs`. -/
def outB (c : Dev nD) (i : grid0.Coords) (arg2 : Memref sig .tc .vmem S512x4096 .f32) (harg2 : arg2.IsWhole) (arg4 : Memref sig .tc .vmem S1x2048 .f32) (harg4 : arg4.IsWhole) (arg5 : Memref sig .tc .vmem S512x2048 .f32) (harg5 : arg5.IsWhole) (arg6 : Memref sig .tc .vmem S2048x4096 .bf16) (harg6 : arg6.IsWhole) (hc1 : ¬ k0_cond1 i = 1#1) (hc2 : k0_cond2 i = 1#1)
    (x0 : Vec F S512x4096 .f32) (x1 : Vec F S1x2048 .f32) (xs : Vec F S2048x4096 .bf16) : Vec F S512x2048 .f32 :=
  VO.read (Elt F) (VO.writes (Elt F) VO.junk (kernelRunB c i arg2 harg2 arg4 harg4 arg5 harg5 arg6 harg6 hc1 hc2 x0 x1 xs).1)

/-! ## Point by point -/

theorem N32 : cfg0.N = 32 := N_0

/-- The scratch buffer after the first tile `t` of a half. -/
def scrOf (c : Dev nD) (t : Fin cfg0.N) (h : t.val % 16 = 0) : Vec F S2048x4096 .bf16 :=
  soutA c (grid0.coords t) (ms0 t) (hs0 t) (ms1 t) (hs1 t) (ms2 t) (hs2 t) scM (Memref.isWhole_whole _) ((hcond1 t).mpr h) (fun h' => (hcond2 t).mp h' h) (iblk m c 0 t) (iblk m c 1 t) (V m c main_v14)

theorem scrOf_congr (c : Dev nD) (t t' : Fin cfg0.N) (e : t = t') (h : t.val % 16 = 0) (h' : t'.val % 16 = 0) :
    scrOf m c t h = scrOf m c t' h' := by subst e; rfl

/-- The first tile of the half that point `n` lies in. -/
def firstOf (n : ℕ) (hn : n < cfg0.N) : Fin cfg0.N := ⟨n / 16 * 16, lt_of_le_of_lt (Nat.div_mul_le_self n 16) hn⟩

/-- The scratch buffer after point `n`: what the first tile of `n`'s half left (later tiles only read it). -/
def scrAt (c : Dev nD) (n : ℕ) (hn : n < cfg0.N) : Vec F S2048x4096 .bf16 :=
  scrOf m c (firstOf n hn) (Nat.mul_mod_left _ _)

theorem scrAt_first (c : Dev nD) (t : Fin cfg0.N) (h : t.val % 16 = 0) : scrAt m c t.val t.isLt = scrOf m c t h :=
  scrOf_congr m c _ _ (Fin.ext (by show t.val / 16 * 16 = t.val; omega)) _ _

theorem scrAt_later (c : Dev nD) (n : ℕ) (hn : n < cfg0.N) (h : ¬ n % 16 = 0) :
    scrAt m c (n - 1) (by omega) = scrAt m c n hn :=
  scrOf_congr m c _ _ (Fin.ext (by show (n - 1) / 16 * 16 = n / 16 * 16; omega)) _ _

/-- The output tile's staging buffer after point `t`. -/
def outAt (c : Dev nD) (t : Fin cfg0.N) : Vec F S512x2048 .f32 :=
  if h : t.val % 16 = 0 then
    outA c (grid0.coords t) (ms0 t) (hs0 t) (ms1 t) (hs1 t) (ms2 t) (hs2 t) scM (Memref.isWhole_whole _) ((hcond1 t).mpr h) (fun h' => (hcond2 t).mp h' h) (iblk m c 0 t) (iblk m c 1 t) (V m c main_v14)
  else
    outB c (grid0.coords t) (ms0 t) (hs0 t) (ms1 t) (hs1 t) (ms2 t) (hs2 t) scM (Memref.isWhole_whole _) (fun h' => h ((hcond1 t).mp h')) ((hcond2 t).mpr h) (iblk m c 0 t) (iblk m c 1 t)
      (scrAt m c (t.val - 1) (by have := t.isLt; omega))

/-- The region invariant with the scratch buffer at `xs`. -/
def PhiAt (c : Dev nD) (xs : Vec F S2048x4096 .bf16) : sProp 𝕄 :=
  iprop(owns (c : Thread nD τ) scM fullShare xs ∗ (∃ r, prngReg c r) ∗ iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0) ∗ iprop(hbPt c hbM (V m c main_v14)))

/-- The region invariant before position `n`. -/
def PhiS (c : Dev nD) (n : ℕ) (hn : n ≤ cfg0.N) : sProp 𝕄 :=
  if h : n % 16 = 0 then Pipeline.ΦD osem0 spec0 H0 (V m) c
  else PhiAt m c (scrAt m c (n - 1) (by omega))

theorem PhiS_first (c : Dev nD) (n : ℕ) (hn : n ≤ cfg0.N) (h : n % 16 = 0) : PhiS m c n hn = Pipeline.ΦD osem0 spec0 H0 (V m) c := dif_pos h
theorem PhiS_later (c : Dev nD) (n : ℕ) (hn : n ≤ cfg0.N) (h : ¬ n % 16 = 0) :
    PhiS m c n hn = PhiAt m c (scrAt m c (n - 1) (by omega)) := dif_neg h

/-- The invariant with the scratch at named contents yields the invariant with the scratch at anything. -/
theorem PhiAt_forget (c : Dev nD) (xs : Vec F S2048x4096 .bf16) : PhiAt m c xs ⊢ Pipeline.ΦD osem0 spec0 H0 (V m) c := by
  rw [PhiD_eq]; unfold PhiAt
  iintro ⟨HS, Hr⟩
  isplitl [HS]
  · iexists _; iexact HS
  iexact Hr

/-! ## The proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = PhiS m c (t.val + 1) t.isLt from rfl, Phi_castSucc]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  have hN : t.val < 32 := lt_of_lt_of_eq t.isLt N32
  by_cases h0 : t.val % 16 = 0
  · -- the first tile of a half
    rw [PhiS_first m c _ _ h0, PhiS_later m c (t.val + 1) _ (by omega), PhiD_eq]
    rw [show scrAt m c (t.val + 1 - 1) (by have := t.isLt; omega) = scrOf m c t h0 from scrAt_first m c t h0]
    unfold PhiAt Dat.owesAt Pipeline.owesWithin
    rw [show (dats m 0 c).owed t.castSucc = 0 from rfl, show (dats m 0 c).owed t.succ = 0 from rfl]
    unfold outAt; rw [dif_pos h0]
    unfold scrOf outA soutA
    iintro ⟨⟨HS, Hg, ⟨Hq0, Hq1, Hq2, Hq3⟩, Hh⟩, ⟨%W, -, HW⟩, ⟨%d0, H0⟩, ⟨%d1, H1⟩, ⟨%d2, H2⟩⟩
    iapply ((kernelRunA c (grid0.coords t) _ _ _ _ _ _ _ _ ((hcond1 t).mpr h0) (fun h' => (hcond2 t).mp h' h0) (iblk m c 0 t) (iblk m c 1 t) (V m c main_v14)).2.2 W _)
    isplitl [H0]; · iexact H0
    isplitl [H1]; · iexact H1
    isplitl [H2]; · iexists _; iexact H2
    isplitl [HS]; · iexact HS
    isplitl [Hq0]; · iexact Hq0
    isplitl [Hq1]; · iexact Hq1
    isplitl [Hq2]; · iexact Hq2
    isplitl [Hq3]; · iexact Hq3
    isplitl [Hh]; · iexact Hh
    isplitl [HW]; · iexact HW
    iintro ⟨H0, H1, ⟨%e2, H2⟩, ⟨%es, HS⟩, Hq0, Hq1, Hq2, Hq3, Hh, ⟨%W', HW'⟩⟩
    isplitl [HS Hg Hq0 Hq1 Hq2 Hq3 Hh]
    · isplitl [HS]
      · unfold owns; iexists _; isplitr
        swap; · iexact HS
        ipureintro; exact View.read_writes_of_cover _ _ _ _ _ (scoverA c _ _ _ _ _ _ _ _ _ _ _ _ _ _)
      isplitl [Hg]; · iexact Hg
      isplitl [Hq0 Hq1 Hq2 Hq3]
      · isplitl [Hq0]; · iexact Hq0
        isplitl [Hq1]; · iexact Hq1
        isplitl [Hq2]; · iexact Hq2
        iexact Hq3
      iexact Hh
    isplitl [HW']
    · iexists W'; isplitr; · ipureintro; exact fun _ _ => Or.inl trivial
      iexact HW'
    isplitl [H0]; · iexact H0
    isplitl [H1]; · iexact H1
    unfold owns; iexists _; isplitr
    swap; · iexact H2
    ipureintro; exact View.read_writes_of_cover _ _ _ _ _ (coverA c _ _ _ _ _ _ _ _ _ _ _ _ _ _)
  · -- a later tile: the scratch is read, the invariant's other parts pass by
    rw [PhiS_later m c _ _ h0]
    rw [show (dats m 0 c).owesAt () t.succ = (dats m 0 c).owesAt () t.castSucc from rfl]
    unfold outAt; rw [dif_neg h0]
    unfold outB
    by_cases h1 : (t.val + 1) % 16 = 0
    · rw [PhiS_first m c _ _ h1]
      iintro ⟨HP, Ho, ⟨%d0, H0⟩, ⟨%d1, H1⟩, ⟨%d2, H2⟩⟩
      unfold PhiAt
      icases HP with ⟨HS, Hr⟩
      iapply ((kernelRunB c (grid0.coords t) _ _ _ _ _ _ _ _ (fun h' => h0 ((hcond1 t).mp h')) ((hcond2 t).mpr h0) (iblk m c 0 t) (iblk m c 1 t) _).2 Set.univ _)
      isplitl [H0]; · iexact H0
      isplitl [H1]; · iexact H1
      isplitl [H2]; · iexists _; iexact H2
      isplitl [HS]; · iexact HS
      iintro ⟨H0, H1, ⟨%e2, H2⟩, HS⟩
      isplitl [HS Hr]
      · iapply (PhiAt_forget m c _)
        unfold PhiAt
        isplitl [HS]; · iexact HS
        iexact Hr
      isplitl [Ho]; · iexact Ho
      isplitl [H0]; · iexact H0
      isplitl [H1]; · iexact H1
      unfold owns; iexists _; isplitr
      swap; · iexact H2
      ipureintro; exact View.read_writes_of_cover _ _ _ _ _ (coverB c _ _ _ _ _ _ _ _ _ _ _ _ _ _)
    · rw [PhiS_later m c _ _ h1]
      rw [show scrAt m c (t.val + 1 - 1) (by have := t.isLt; omega) = scrAt m c (t.val - 1) (by have := t.isLt; omega) from
        (scrAt_later m c t.val t.isLt h0).symm]
      iintro ⟨HP, Ho, ⟨%d0, H0⟩, ⟨%d1, H1⟩, ⟨%d2, H2⟩⟩
      unfold PhiAt
      icases HP with ⟨HS, Hr⟩
      iapply ((kernelRunB c (grid0.coords t) _ _ _ _ _ _ _ _ (fun h' => h0 ((hcond1 t).mp h')) ((hcond2 t).mpr h0) (iblk m c 0 t) (iblk m c 1 t) _).2 Set.univ _)
      isplitl [H0]; · iexact H0
      isplitl [H1]; · iexact H1
      isplitl [H2]; · iexists _; iexact H2
      isplitl [HS]; · iexact HS
      iintro ⟨H0, H1, ⟨%e2, H2⟩, HS⟩
      isplitl [HS Hr]
      · isplitl [HS]; · iexact HS
        iexact Hr
      isplitl [Ho]; · iexact Ho
      isplitl [H0]; · iexact H0
      isplitl [H1]; · iexact H1
      unfold owns; iexists _; isplitr
      swap; · iexact H2
      ipureintro; exact View.read_writes_of_cover _ _ _ _ _ (coverB c _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦD osem0 spec0 H0 (fun c b => V0 m c (Proc.devRef .tc b)) c ⊢ (dats m 0 c).Φ 0 := by
  rw [show (dats m 0 c).Φ 0 = PhiS m c 0 (Nat.zero_le _) from rfl, PhiS_first m c 0 _ rfl]

theorem hout (c : Dev nD) : (dats m 0 c).Φ (Fin.last cfg0.N) ⊢ Pipeline.ΦD osem0 spec0 H0 (fun c b => V0 m c (Proc.devRef .tc b)) c := by
  rw [show (dats m 0 c).Φ (Fin.last cfg0.N) = PhiS m c cfg0.N (le_refl _) from rfl, PhiS_first m c _ _ (by rw [N32])]

/-! ## The run and the frame -/

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_dma_around cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := hin m) (hout := hout m)

/-- The frame: the program terminates without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (run_main m ρ)

end Cert.Kernel.FrameD

end
-- ==== Proof.KI.KitD.lean ====
/-
  The launch side of the weight-resident matmul, restated over the algebra that carries transfer counters.

  The kernel copies its half of the weight matrix from the array left in HBM into a scratch buffer by four
  transfers of its own, so its region invariant lives in the algebra `Pipeline.UD` (the pipeline's algebra beside
  the transfers' counters).  This module states, over that algebra: the program as host lines, the region, host
  lines; that the one line after the region (a reshape of the result) touches neither an array nor the weight
  matrix; that every argument array ends as launched; that the two staged inputs (the rows of `x` and the bias
  half) are found at their blocks at every grid point; and how the frame claim's post follows from a frame run.
-/
import proofs.«130494_j30803505447137_2_alg».proof.Proof.Gen.KernelIdeal.Frame
import proofs.«130494_j30803505447137_2_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.FrameD

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The program is: the host lines that build the weight matrix and re-lay `x` and the bias, the region, and the
    reshape of the result. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The one array the body moves itself: the bf16 weight matrix, left in HBM. -/
def H0 : Finset (Ref sig .tc) := {main_v14}
theorem H0_sub : H0 ⊆ Pipeline.restRefs sig spec0 := by decide

/-- The reshape after the region reads the result array and writes its own buffer: it touches no weight. -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl
    all_goals intro b hb; simp only [H0, Finset.mem_insert, Finset.mem_singleton] at hb
    all_goals rcases hb with rfl <;>
      simp only [StableHlo.nullary_bufs, StableHlo.unary_bufs, StableHlo.binary_bufs, StableHlo.reshape_bufs, Finset.mem_insert, Finset.mem_singleton, not_or] <;> and_intros <;> exact StableHlo.devRef_ne_of_ne (by decide)

/-- A buffer that is no window's array and is not the reshape's result ends at what the region found in it. -/
theorem W_keep (dats : (p : Fin 1) → (c : Dev nD) → Dat τ (Elt F) Unit ℕ (Pipeline.UD sig nD τ) ℕ (cfgs p) c) (c : Dev nD)
    (b : Ref sig .tc) (hb : b ≠ main_v18) (hw : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne hb)),
    Pipeline.withArrays_of_ne _ c (V0 m c) _ b hw]

/-- The rows of `x` are found at their block at every grid point, fetched there or not. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The bias half is found at its block at every grid point: it is fetched at the first point of a half and stays. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The frame claim's post from a frame run: every argument array is neither a window's array nor written by a
    host line, so it ends as launched. -/
theorem frame_of (dats : (p : Fin 1) → (c : Dev nD) → Dat τ (Elt F) Unit ℕ (Pipeline.UD sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
     ⟨((h c).2 main_arg0 (Pipeline.mem_restRefs_of main_arg0 (by decide) (by decide))).trans ((W_keep m dats c main_arg0 (by decide) (by decide)).trans (V_main_arg0 m c)),
      ((h c).2 main_arg1 (Pipeline.mem_restRefs_of main_arg1 (by decide) (by decide))).trans ((W_keep m dats c main_arg1 (by decide) (by decide)).trans (V_main_arg1 m c)),
      ((h c).2 main_arg2 (Pipeline.mem_restRefs_of main_arg2 (by decide) (by decide))).trans ((W_keep m dats c main_arg2 (by decide) (by decide)).trans (V_main_arg2 m c)),
      ((h c).2 main_arg3 (Pipeline.mem_restRefs_of main_arg3 (by decide) (by decide))).trans ((W_keep m dats c main_arg3 (by decide) (by decide)).trans (V_main_arg3 m c)),
      ((h c).2 main_arg4 (Pipeline.mem_restRefs_of main_arg4 (by decide) (by decide))).trans ((W_keep m dats c main_arg4 (by decide) (by decide)).trans (V_main_arg4 m c)),
      ((h c).2 main_arg5 (Pipeline.mem_restRefs_of main_arg5 (by decide) (by decide))).trans ((W_keep m dats c main_arg5 (by decide) (by decide)).trans (V_main_arg5 m c))⟩) h

end Cert.KernelIdeal.FrameD

end
-- ==== Proof.KI.Runs.lean ====
/-
  What the two cases of the body share.

  The grid has 2 × 16 points, walked in order: point `t` is row-tile `t % 16` of output half `t / 16`.  At the
  first tile of a half (`t % 16 = 0`) the body copies that half of the weight matrix — rows `2048·(t/16)` onward,
  in four column bands of 1024 — from HBM into its scratch buffer, each band by a transfer on a semaphore of its
  own, and multiplies band by band as the bands arrive; at every other tile it multiplies by the scratch buffer as
  the first tile of the half left it.  This module names the staging buffers at a point, the scratch buffer, the
  weight array in HBM, the four semaphores, and decides the two branch conditions over the grid.
-/
import proofs.«130494_j30803505447137_2_alg».proof.Proof.KI.KitD

set_option maxRecDepth 16384

noncomputable section

namespace Cert.KernelIdeal.FrameD

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The first-tile branch is taken exactly at the points `t` with `t % 16 = 0`. -/
theorem hcond1 : ∀ t : Fin cfg0.N, k0_cond1 (grid0.coords t) = 1#1 ↔ t.val % 16 = 0 :=
  (by decide +kernel : ∀ t : Fin grid0.N, k0_cond1 (grid0.coords t) = 1#1 ↔ t.val % 16 = 0)
/-- The later-tile branch is taken exactly at the other points. -/
theorem hcond2 : ∀ t : Fin cfg0.N, k0_cond2 (grid0.coords t) = 1#1 ↔ ¬ t.val % 16 = 0 :=
  (by decide +kernel : ∀ t : Fin grid0.N, k0_cond2 (grid0.coords t) = 1#1 ↔ ¬ t.val % 16 = 0)

/-- No window is idle at any point: the body loads both inputs and stores the whole output tile in either case. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel

/-- One staging buffer of the output window, through which its contents are stated. -/
abbrev VO : View sig .tc .vmem S512x2048 .f32 := (Memref.whole cc0_stg2_0 : Memref sig .tc .vmem S512x2048 .f32).view
/-- Each window's current staging memref at point `t`, and its wholeness. -/
abbrev ms0 (t : Fin cfg0.N) : Memref sig .tc .vmem S512x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x2048 .f32 := win0_2.stage (cfg0.slots t 2)
abbrev hs2 (t : Fin cfg0.N) : (ms2 t).IsWhole := hstage0_2 ((cfg0.slots t 2).cast nbuf0_2)
/-- The scratch buffer that keeps a half of the weight matrix between points. -/
abbrev scM : Memref sig .tc .vmem S2048x4096 .bf16 := Memref.whole cc0_scratch0
abbrev VS : View sig .tc .vmem S2048x4096 .bf16 := scM.view
/-- The weight matrix in HBM, whole. -/
abbrev hbM : Memref sig .tc .hbm S4096x4096 .bf16 := Memref.whole main_v14
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The body's four semaphores, one per column band. -/
abbrev osem0 : Fin 4 → SemLoc sig := fun j => (![SemLoc.dma 6, SemLoc.dma 7, SemLoc.dma 8, SemLoc.dma 9] : Fin 4 → SemLoc sig) j
theorem ownSemFacts0 : Pipeline.OwnSemFacts spec0 osem0 := by decide
theorem ownSems0_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0) := by
  rw [Pipeline.ownSems0_eq_of_list c osem0 [0, 1, 2, 3] (by decide) (by decide)]; rfl
theorem hbmPts_eq (c : Dev nD) :
    (bigSep H0 (fun b => ((c : Thread nD τ).loc b) ↦{fullShare} V m c b) : sProp 𝕄) = iprop(hbPt c hbM (V m c main_v14)) := by
  rw [BI.bigSep_eq_bigSepL_of_eq [main_v14] (by decide) (by decide)]; rfl

/-- The region invariant between halves, conjunct by conjunct: the scratch at some contents, the generator
    register, the four semaphores at zero, the weight matrix whole as the region found it. -/
theorem PhiD_eq (c : Dev nD) :
    (Pipeline.ΦD osem0 spec0 H0 (V m) c : sProp 𝕄)
      = iprop(iprop((∃ d, owns (c : Thread nD τ) scM fullShare d)) ∗ (∃ r, prngReg c r) ∗ iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0) ∗ iprop(hbPt c hbM (V m c main_v14))) := by
  rw [Pipeline.ΦD_eq, scopedRest0_eq, ownSems0_eq, hbmPts_eq]; simp only [scM, owns_whole]; try rfl

end Cert.KernelIdeal.FrameD

end
-- ==== Proof.KI.RunA.lean ====
/-
  The body at the first tile of a half (`t % 16 = 0`): four transfers, one per band of 1024 columns, copy rows
  `2048·p ..` of the weight matrix from HBM into the scratch buffer; each is waited for in turn, its band loaded
  and multiplied into the accumulator, and `x · Wᵀ + bias` is stored over the whole output tile.  All four
  transfers are in flight together, each into its own band of the scratch buffer and out of its own band of the
  weight rows, so each lends only its band.  When the body ends every transfer has been waited for: the weight
  matrix is whole again, the four semaphores are back at zero, and the scratch holds the four bands delivered.
-/
import proofs.«130494_j30803505447137_2_alg».proof.Proof.KI.Runs

set_option maxRecDepth 16384

noncomputable section

namespace Cert.KernelIdeal.FrameD

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
/-- The piece the body's one store leaves in the output tile and the four bands the transfers deliver into the
    scratch, with the proof that on whole staging memrefs — the inputs at their contents, the output and the
    scratch at anything, the four semaphores at zero, the weight matrix whole at `fh` — the body runs to the
    continuation holding the inputs, the semaphores and the weight matrix as they were, the output and the
    scratch with their pieces written, and its waits recorded. -/
noncomputable def kernelRunA (c : Dev nD) (i : grid0.Coords) (arg2 : Memref sig .tc .vmem S512x4096 .f32) (harg2 : arg2.IsWhole) (arg4 : Memref sig .tc .vmem S1x2048 .f32) (harg4 : arg4.IsWhole) (arg5 : Memref sig .tc .vmem S512x2048 .f32) (harg5 : arg5.IsWhole) (arg6 : Memref sig .tc .vmem S2048x4096 .bf16) (harg6 : arg6.IsWhole)
    (hc1 : k0_cond1 i = 1#1) (hc2 : ¬ k0_cond2 i = 1#1)
    (x0 : Vec F S512x4096 .f32) (x1 : Vec F S1x2048 .f32) (fh : HbBuf (F := F) c hbM) :
    Σ' (L2 : List (View.Piece (Elt F) S512x2048 .f32)), { LS : List (View.Piece (Elt F) S2048x4096 .bf16) //
      ∀ (W : Waits sig Unit) (K : PUnit → sProp 𝕄),
        iprop(owns (c : Thread nD τ) arg2 fullShare x0 ∗ owns (c : Thread nD τ) arg4 fullShare x1 ∗ (∃ d, owns (c : Thread nD τ) arg5 fullShare d) ∗ (∃ d, owns (c : Thread nD τ) arg6 fullShare d)
            ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ hbPt c hbM fh ∗ owes (c : Thread nD τ) 0 W
            ∗ (iprop(owns (c : Thread nD τ) arg2 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)
                ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ hbPt c hbM fh ∗ (∃ W', owes (c : Thread nD τ) 0 W')) -∗ K ⟨⟩))
          ⊢ wp frame (wpE (defs₀ (F := F)) Variants.none c none) Set.univ (cc0__matmul_kernel i arg2 harg2 (Memref.whole main_v14) (Memref.isWhole_whole _) arg4 harg4 arg5 harg5 arg6 harg6 cc0_scratch1) K } := by
  refine ⟨?_, ?_, fun W K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%ds, %fs, -, HS⟩, Hq0, Hq1, Hq2, Hq3, Hh, HW, Hk⟩
    obtain rfl := harg2.eq_unread hf0; obtain rfl := harg4.eq_unread hf1
    set_option sl_exec.dmaWindow true in
    set_option sl_exec.dmaWindowSet true in
    sl_exec (disch := first | exact hc1 | exact hc2)
    sl_step
    iapply Hk
    isplitl [H0]
    · iexists _; isplitr; · ipureintro; exact harg2.read_unread _
      iexact H0
    isplitl [H1]
    · iexists _; isplitr; · ipureintro; exact harg4.read_unread _
      iexact H1
    isplitl [H2]; · iexists _; iexact H2
    isplitl [HS]; · iexists _; iexact HS
    isplitl [Hq0]; · iexact Hq0
    isplitl [Hq1]; · iexact Hq1
    isplitl [Hq2]; · iexact Hq2
    isplitl [Hq3]; · iexact Hq3
    isplitl [Hh]; · iexact Hh
    iexists _; iexact HW

end Cert.KernelIdeal.FrameD

end
-- ==== Proof.KI.RunB.lean ====
/-
  The body at a later tile of a half (`t % 16 ≠ 0`): it loads the rows of `x`, the whole scratch buffer — the
  weight half the first tile of this half left there —, the bias half, and stores `x · Wᵀ + bias` over the whole
  output tile.  The scratch buffer is only read.
-/
import proofs.«130494_j30803505447137_2_alg».proof.Proof.KI.RunA

set_option maxRecDepth 16384

noncomputable section

namespace Cert.KernelIdeal.FrameD

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The pieces the body's one store leaves in the output tile, with the proof that on whole staging memrefs — the
    inputs at their contents, the output at anything, the scratch at the contents `xs` — the body runs to the
    continuation holding the inputs and the scratch as they were and the output with its piece written. -/
noncomputable def kernelRunB (c : Dev nD) (i : grid0.Coords) (arg2 : Memref sig .tc .vmem S512x4096 .f32) (harg2 : arg2.IsWhole) (arg4 : Memref sig .tc .vmem S1x2048 .f32) (harg4 : arg4.IsWhole) (arg5 : Memref sig .tc .vmem S512x2048 .f32) (harg5 : arg5.IsWhole) (arg6 : Memref sig .tc .vmem S2048x4096 .bf16) (harg6 : arg6.IsWhole)
    (hc1 : ¬ k0_cond1 i = 1#1) (hc2 : k0_cond2 i = 1#1)
    (x0 : Vec F S512x4096 .f32) (x1 : Vec F S1x2048 .f32) (xs : Vec F S2048x4096 .bf16) :
    { L2 : List (View.Piece (Elt F) S512x2048 .f32) //
      ∀ (E : Set ℕ) (K : PUnit → sProp 𝕄),
        iprop(owns (c : Thread nD τ) arg2 fullShare x0 ∗ owns (c : Thread nD τ) arg4 fullShare x1 ∗ (∃ d, owns (c : Thread nD τ) arg5 fullShare d) ∗ owns (c : Thread nD τ) arg6 fullShare xs
            ∗ (iprop(owns (c : Thread nD τ) arg2 fullShare x0 ∗ owns (c : Thread nD τ) arg4 fullShare x1 ∗ (∃ f, arg5.view.loc (c : Thread nD τ) ↦[arg5.view.set]{fullShare} arg5.view.writes (Elt F) f L2) ∗ owns (c : Thread nD τ) arg6 fullShare xs) -∗ K ⟨⟩))
          ⊢ wp frame (wpE (defs₀ (F := F)) Variants.none c none) E (cc0__matmul_kernel i arg2 harg2 (Memref.whole main_v14) (Memref.isWhole_whole _) arg4 harg4 arg5 harg5 arg6 harg6 cc0_scratch1) K } := by
  refine ⟨?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg4.eq_unread hf1; obtain rfl := harg6.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg4.read_unread _
      iexact H1
    isplitl [H2]; · iexists _; iexact H2
    iexists _; isplitr; · ipureintro; exact harg6.read_unread _
    iexact HS

end Cert.KernelIdeal.FrameD

end
-- ==== Proof.KI.Body.lean ====
/-
  The proof data of the region and the body obligation at every grid point.

  After point `t` the output tile's staging buffer holds what the case of `t` stored: at the first tile of a
  half, the product accumulated band by band over the weight rows just copied in; at a later tile, the product
  with the scratch buffer as the first tile of the same half left it.  Between points the region invariant holds
  the scratch buffer: at anything before the first tile of a half (positions 0, 16 and 32), and at the four
  delivered bands of that half's weight rows everywhere else.  The four semaphores are at zero and the weight
  matrix is whole at every position, since every transfer is waited for within its point.
-/
import proofs.«130494_j30803505447137_2_alg».proof.Proof.KI.RunB

set_option maxRecDepth 16384

noncomputable section

namespace Cert.KernelIdeal.FrameD

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What each case leaves -/

theorem coverA (c : Dev nD) (i : grid0.Coords) (arg2 : Memref sig .tc .vmem S512x4096 .f32) (harg2 : arg2.IsWhole) (arg4 : Memref sig .tc .vmem S1x2048 .f32) (harg4 : arg4.IsWhole) (arg5 : Memref sig .tc .vmem S512x2048 .f32) (harg5 : arg5.IsWhole) (arg6 : Memref sig .tc .vmem S2048x4096 .bf16) (harg6 : arg6.IsWhole) (hc1 : k0_cond1 i = 1#1) (hc2 : ¬ k0_cond2 i = 1#1)
    (x0 : Vec F S512x4096 .f32) (x1 : Vec F S1x2048 .f32) (fh : HbBuf (F := F) c hbM) (y : S512x2048.Idx) :
    ∃ pc ∈ (kernelRunA c i arg2 harg2 arg4 harg4 arg5 harg5 arg6 harg6 hc1 hc2 x0 x1 fh).1, y ∈ pc.1.set :=
  View.cover_of_tiledL (kernelRunA c i arg2 harg2 arg4 harg4 arg5 harg5 arg6 harg6 hc1 hc2 x0 x1 fh).1 S512x2048.size (by sl_kernel_rfl) y

/-- The four bands delivered tile the scratch buffer. -/
theorem scoverA (c : Dev nD) (i : grid0.Coords) (arg2 : Memref sig .tc .vmem S512x4096 .f32) (harg2 : arg2.IsWhole) (arg4 : Memref sig .tc .vmem S1x2048 .f32) (harg4 : arg4.IsWhole) (arg5 : Memref sig .tc .vmem S512x2048 .f32) (harg5 : arg5.IsWhole) (arg6 : Memref sig .tc .vmem S2048x4096 .bf16) (harg6 : arg6.IsWhole) (hc1 : k0_cond1 i = 1#1) (hc2 : ¬ k0_cond2 i = 1#1)
    (x0 : Vec F S512x4096 .f32) (x1 : Vec F S1x2048 .f32) (fh : HbBuf (F := F) c hbM) (y : S2048x4096.Idx) :
    ∃ pc ∈ (kernelRunA c i arg2 harg2 arg4 harg4 arg5 harg5 arg6 harg6 hc1 hc2 x0 x1 fh).2.1, y ∈ pc.1.set :=
  View.cover_of_tiledL (kernelRunA c i arg2 harg2 arg4 harg4 arg5 harg5 arg6 harg6 hc1 hc2 x0 x1 fh).2.1 S2048x1024.size (by sl_kernel_rfl) y

/-- The output tile after a first tile of a half. -/
def outA (c : Dev nD) (i : grid0.Coords) (arg2 : Memref sig .tc .vmem S512x4096 .f32) (harg2 : arg2.IsWhole) (arg4 : Memref sig .tc .vmem S1x2048 .f32) (harg4 : arg4.IsWhole) (arg5 : Memref sig .tc .vmem S512x2048 .f32) (harg5 : arg5.IsWhole) (arg6 : Memref sig .tc .vmem S2048x4096 .bf16) (harg6 : arg6.IsWhole) (hc1 : k0_cond1 i = 1#1) (hc2 : ¬ k0_cond2 i = 1#1)
    (x0 : Vec F S512x4096 .f32) (x1 : Vec F S1x2048 .f32) (fh : HbBuf (F := F) c hbM) : Vec F S512x2048 .f32 :=
  VO.read (Elt F) (VO.writes (Elt F) VO.junk (kernelRunA c i arg2 harg2 arg4 harg4 arg5 harg5 arg6 harg6 hc1 hc2 x0 x1 fh).1)

/-- The scratch buffer after a first tile of a half. -/
def soutA (c : Dev nD) (i : grid0.Coords) (arg2 : Memref sig .tc .vmem S512x4096 .f32) (harg2 : arg2.IsWhole) (arg4 : Memref sig .tc .vmem S1x2048 .f32) (harg4 : arg4.IsWhole) (arg5 : Memref sig .tc .vmem S512x2048 .f32) (harg5 : arg5.IsWhole) (arg6 : Memref sig .tc .vmem S2048x4096 .bf16) (harg6 : arg6.IsWhole) (hc1 : k0_cond1 i = 1#1) (hc2 : ¬ k0_cond2 i = 1#1)
    (x0 : Vec F S512x4096 .f32) (x1 : Vec F S1x2048 .f32) (fh : HbBuf (F := F) c hbM) : Vec F S2048x4096 .bf16 :=
  VS.read (Elt F) (VS.writes (Elt F) VS.junk (kernelRunA c i arg2 harg2 arg4 harg4 arg5 harg5 arg6 harg6 hc1 hc2 x0 x1 fh).2.1)

theorem coverB (c : Dev nD) (i : grid0.Coords) (arg2 : Memref sig .tc .vmem S512x4096 .f32) (harg2 : arg2.IsWhole) (arg4 : Memref sig .tc .vmem S1x2048 .f32) (harg4 : arg4.IsWhole) (arg5 : Memref sig .tc .vmem S512x2048 .f32) (harg5 : arg5.IsWhole) (arg6 : Memref sig .tc .vmem S2048x4096 .bf16) (harg6 : arg6.IsWhole) (hc1 : ¬ k0_cond1 i = 1#1) (hc2 : k0_cond2 i = 1#1)
    (x0 : Vec F S512x4096 .f32) (x1 : Vec F S1x2048 .f32) (xs : Vec F S2048x4096 .bf16) (y : S512x2048.Idx) :
    ∃ pc ∈ (kernelRunB c i arg2 harg2 arg4 harg4 arg5 harg5 arg6 harg6 hc1 hc2 x0 x1 xs).1, y ∈ pc.1.set :=
  View.cover_of_tiledL (kernelRunB c i arg2 harg2 arg4 harg4 arg5 harg5 arg6 harg6 hc1 hc2 x0 x1 xs).1 S512x2048.size (by sl_kernel_rfl) y

/-- The output tile after a later tile of a half, the scratch at `xs`. -/
def outB (c : Dev nD) (i : grid0.Coords) (arg2 : Memref sig .tc .vmem S512x4096 .f32) (harg2 : arg2.IsWhole) (arg4 : Memref sig .tc .vmem S1x2048 .f32) (harg4 : arg4.IsWhole) (arg5 : Memref sig .tc .vmem S512x2048 .f32) (harg5 : arg5.IsWhole) (arg6 : Memref sig .tc .vmem S2048x4096 .bf16) (harg6 : arg6.IsWhole) (hc1 : ¬ k0_cond1 i = 1#1) (hc2 : k0_cond2 i = 1#1)
    (x0 : Vec F S512x4096 .f32) (x1 : Vec F S1x2048 .f32) (xs : Vec F S2048x4096 .bf16) : Vec F S512x2048 .f32 :=
  VO.read (Elt F) (VO.writes (Elt F) VO.junk (kernelRunB c i arg2 harg2 arg4 harg4 arg5 harg5 arg6 harg6 hc1 hc2 x0 x1 xs).1)

/-! ## Point by point -/

theorem N32 : cfg0.N = 32 := N_0

/-- The scratch buffer after the first tile `t` of a half. -/
def scrOf (c : Dev nD) (t : Fin cfg0.N) (h : t.val % 16 = 0) : Vec F S2048x4096 .bf16 :=
  soutA c (grid0.coords t) (ms0 t) (hs0 t) (ms1 t) (hs1 t) (ms2 t) (hs2 t) scM (Memref.isWhole_whole _) ((hcond1 t).mpr h) (fun h' => (hcond2 t).mp h' h) (iblk m c 0 t) (iblk m c 1 t) (V m c main_v14)

theorem scrOf_congr (c : Dev nD) (t t' : Fin cfg0.N) (e : t = t') (h : t.val % 16 = 0) (h' : t'.val % 16 = 0) :
    scrOf m c t h = scrOf m c t' h' := by subst e; rfl

/-- The first tile of the half that point `n` lies in. -/
def firstOf (n : ℕ) (hn : n < cfg0.N) : Fin cfg0.N := ⟨n / 16 * 16, lt_of_le_of_lt (Nat.div_mul_le_self n 16) hn⟩

/-- The scratch buffer after point `n`: what the first tile of `n`'s half left (later tiles only read it). -/
def scrAt (c : Dev nD) (n : ℕ) (hn : n < cfg0.N) : Vec F S2048x4096 .bf16 :=
  scrOf m c (firstOf n hn) (Nat.mul_mod_left _ _)

theorem scrAt_first (c : Dev nD) (t : Fin cfg0.N) (h : t.val % 16 = 0) : scrAt m c t.val t.isLt = scrOf m c t h :=
  scrOf_congr m c _ _ (Fin.ext (by show t.val / 16 * 16 = t.val; omega)) _ _

theorem scrAt_later (c : Dev nD) (n : ℕ) (hn : n < cfg0.N) (h : ¬ n % 16 = 0) :
    scrAt m c (n - 1) (by omega) = scrAt m c n hn :=
  scrOf_congr m c _ _ (Fin.ext (by show (n - 1) / 16 * 16 = n / 16 * 16; omega)) _ _

/-- The output tile's staging buffer after point `t`. -/
def outAt (c : Dev nD) (t : Fin cfg0.N) : Vec F S512x2048 .f32 :=
  if h : t.val % 16 = 0 then
    outA c (grid0.coords t) (ms0 t) (hs0 t) (ms1 t) (hs1 t) (ms2 t) (hs2 t) scM (Memref.isWhole_whole _) ((hcond1 t).mpr h) (fun h' => (hcond2 t).mp h' h) (iblk m c 0 t) (iblk m c 1 t) (V m c main_v14)
  else
    outB c (grid0.coords t) (ms0 t) (hs0 t) (ms1 t) (hs1 t) (ms2 t) (hs2 t) scM (Memref.isWhole_whole _) (fun h' => h ((hcond1 t).mp h')) ((hcond2 t).mpr h) (iblk m c 0 t) (iblk m c 1 t)
      (scrAt m c (t.val - 1) (by have := t.isLt; omega))

/-- The region invariant with the scratch buffer at `xs`. -/
def PhiAt (c : Dev nD) (xs : Vec F S2048x4096 .bf16) : sProp 𝕄 :=
  iprop(owns (c : Thread nD τ) scM fullShare xs ∗ (∃ r, prngReg c r) ∗ iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0) ∗ iprop(hbPt c hbM (V m c main_v14)))

/-- The region invariant before position `n`. -/
def PhiS (c : Dev nD) (n : ℕ) (hn : n ≤ cfg0.N) : sProp 𝕄 :=
  if h : n % 16 = 0 then Pipeline.ΦD osem0 spec0 H0 (V m) c
  else PhiAt m c (scrAt m c (n - 1) (by omega))

theorem PhiS_first (c : Dev nD) (n : ℕ) (hn : n ≤ cfg0.N) (h : n % 16 = 0) : PhiS m c n hn = Pipeline.ΦD osem0 spec0 H0 (V m) c := dif_pos h
theorem PhiS_later (c : Dev nD) (n : ℕ) (hn : n ≤ cfg0.N) (h : ¬ n % 16 = 0) :
    PhiS m c n hn = PhiAt m c (scrAt m c (n - 1) (by omega)) := dif_neg h

/-- The invariant with the scratch at named contents yields the invariant with the scratch at anything. -/
theorem PhiAt_forget (c : Dev nD) (xs : Vec F S2048x4096 .bf16) : PhiAt m c xs ⊢ Pipeline.ΦD osem0 spec0 H0 (V m) c := by
  rw [PhiD_eq]; unfold PhiAt
  iintro ⟨HS, Hr⟩
  isplitl [HS]
  · iexists _; iexact HS
  iexact Hr

/-! ## The proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = PhiS m c (t.val + 1) t.isLt from rfl, Phi_castSucc]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  have hN : t.val < 32 := lt_of_lt_of_eq t.isLt N32
  by_cases h0 : t.val % 16 = 0
  · -- the first tile of a half
    rw [PhiS_first m c _ _ h0, PhiS_later m c (t.val + 1) _ (by omega), PhiD_eq]
    rw [show scrAt m c (t.val + 1 - 1) (by have := t.isLt; omega) = scrOf m c t h0 from scrAt_first m c t h0]
    unfold PhiAt Dat.owesAt Pipeline.owesWithin
    rw [show (dats m 0 c).owed t.castSucc = 0 from rfl, show (dats m 0 c).owed t.succ = 0 from rfl]
    unfold outAt; rw [dif_pos h0]
    unfold scrOf outA soutA
    iintro ⟨⟨HS, Hg, ⟨Hq0, Hq1, Hq2, Hq3⟩, Hh⟩, ⟨%W, -, HW⟩, ⟨%d0, H0⟩, ⟨%d1, H1⟩, ⟨%d2, H2⟩⟩
    iapply ((kernelRunA c (grid0.coords t) _ _ _ _ _ _ _ _ ((hcond1 t).mpr h0) (fun h' => (hcond2 t).mp h' h0) (iblk m c 0 t) (iblk m c 1 t) (V m c main_v14)).2.2 W _)
    isplitl [H0]; · iexact H0
    isplitl [H1]; · iexact H1
    isplitl [H2]; · iexists _; iexact H2
    isplitl [HS]; · iexact HS
    isplitl [Hq0]; · iexact Hq0
    isplitl [Hq1]; · iexact Hq1
    isplitl [Hq2]; · iexact Hq2
    isplitl [Hq3]; · iexact Hq3
    isplitl [Hh]; · iexact Hh
    isplitl [HW]; · iexact HW
    iintro ⟨H0, H1, ⟨%e2, H2⟩, ⟨%es, HS⟩, Hq0, Hq1, Hq2, Hq3, Hh, ⟨%W', HW'⟩⟩
    isplitl [HS Hg Hq0 Hq1 Hq2 Hq3 Hh]
    · isplitl [HS]
      · unfold owns; iexists _; isplitr
        swap; · iexact HS
        ipureintro; exact View.read_writes_of_cover _ _ _ _ _ (scoverA c _ _ _ _ _ _ _ _ _ _ _ _ _ _)
      isplitl [Hg]; · iexact Hg
      isplitl [Hq0 Hq1 Hq2 Hq3]
      · isplitl [Hq0]; · iexact Hq0
        isplitl [Hq1]; · iexact Hq1
        isplitl [Hq2]; · iexact Hq2
        iexact Hq3
      iexact Hh
    isplitl [HW']
    · iexists W'; isplitr; · ipureintro; exact fun _ _ => Or.inl trivial
      iexact HW'
    isplitl [H0]; · iexact H0
    isplitl [H1]; · iexact H1
    unfold owns; iexists _; isplitr
    swap; · iexact H2
    ipureintro; exact View.read_writes_of_cover _ _ _ _ _ (coverA c _ _ _ _ _ _ _ _ _ _ _ _ _ _)
  · -- a later tile: the scratch is read, the invariant's other parts pass by
    rw [PhiS_later m c _ _ h0]
    rw [show (dats m 0 c).owesAt () t.succ = (dats m 0 c).owesAt () t.castSucc from rfl]
    unfold outAt; rw [dif_neg h0]
    unfold outB
    by_cases h1 : (t.val + 1) % 16 = 0
    · rw [PhiS_first m c _ _ h1]
      iintro ⟨HP, Ho, ⟨%d0, H0⟩, ⟨%d1, H1⟩, ⟨%d2, H2⟩⟩
      unfold PhiAt
      icases HP with ⟨HS, Hr⟩
      iapply ((kernelRunB c (grid0.coords t) _ _ _ _ _ _ _ _ (fun h' => h0 ((hcond1 t).mp h')) ((hcond2 t).mpr h0) (iblk m c 0 t) (iblk m c 1 t) _).2 Set.univ _)
      isplitl [H0]; · iexact H0
      isplitl [H1]; · iexact H1
      isplitl [H2]; · iexists _; iexact H2
      isplitl [HS]; · iexact HS
      iintro ⟨H0, H1, ⟨%e2, H2⟩, HS⟩
      isplitl [HS Hr]
      · iapply (PhiAt_forget m c _)
        unfold PhiAt
        isplitl [HS]; · iexact HS
        iexact Hr
      isplitl [Ho]; · iexact Ho
      isplitl [H0]; · iexact H0
      isplitl [H1]; · iexact H1
      unfold owns; iexists _; isplitr
      swap; · iexact H2
      ipureintro; exact View.read_writes_of_cover _ _ _ _ _ (coverB c _ _ _ _ _ _ _ _ _ _ _ _ _ _)
    · rw [PhiS_later m c _ _ h1]
      rw [show scrAt m c (t.val + 1 - 1) (by have := t.isLt; omega) = scrAt m c (t.val - 1) (by have := t.isLt; omega) from
        (scrAt_later m c t.val t.isLt h0).symm]
      iintro ⟨HP, Ho, ⟨%d0, H0⟩, ⟨%d1, H1⟩, ⟨%d2, H2⟩⟩
      unfold PhiAt
      icases HP with ⟨HS, Hr⟩
      iapply ((kernelRunB c (grid0.coords t) _ _ _ _ _ _ _ _ (fun h' => h0 ((hcond1 t).mp h')) ((hcond2 t).mpr h0) (iblk m c 0 t) (iblk m c 1 t) _).2 Set.univ _)
      isplitl [H0]; · iexact H0
      isplitl [H1]; · iexact H1
      isplitl [H2]; · iexists _; iexact H2
      isplitl [HS]; · iexact HS
      iintro ⟨H0, H1, ⟨%e2, H2⟩, HS⟩
      isplitl [HS Hr]
      · isplitl [HS]; · iexact HS
        iexact Hr
      isplitl [Ho]; · iexact Ho
      isplitl [H0]; · iexact H0
      isplitl [H1]; · iexact H1
      unfold owns; iexists _; isplitr
      swap; · iexact H2
      ipureintro; exact View.read_writes_of_cover _ _ _ _ _ (coverB c _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦD osem0 spec0 H0 (fun c b => V0 m c (Proc.devRef .tc b)) c ⊢ (dats m 0 c).Φ 0 := by
  rw [show (dats m 0 c).Φ 0 = PhiS m c 0 (Nat.zero_le _) from rfl, PhiS_first m c 0 _ rfl]

theorem hout (c : Dev nD) : (dats m 0 c).Φ (Fin.last cfg0.N) ⊢ Pipeline.ΦD osem0 spec0 H0 (fun c b => V0 m c (Proc.devRef .tc b)) c := by
  rw [show (dats m 0 c).Φ (Fin.last cfg0.N) = PhiS m c cfg0.N (le_refl _) from rfl, PhiS_first m c _ _ (by rw [N32])]

/-! ## The run and the frame -/

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_dma_around cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := hin m) (hout := hout m)

/-- The frame: the program terminates without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (run_main m ρ)

end Cert.KernelIdeal.FrameD

end
-- ==== Proof.KI.Pieces.lean ====
/-
  What each case of the body leaves, as values of the blocks it read.

  A later tile leaves `x · wᵀ + b` of the rows of `x`, the scratch buffer `w` and the bias.  The first tile of
  a half leaves in the scratch buffer the 2048 weight rows of its half — the four bands delivered are the four
  column bands of those rows, so together they are one function of the weight matrix: entry `(n, k)` of the scratch
  is entry `(o + n, k)` of the matrix, `o` the half's first row —, and in the output tile the four band products
  of `x` with those rows added to zero, plus the bias.
-/
import proofs.«130494_j30803505447137_2_alg».proof.Proof.KI.Body
import Idealize.ShloMosaic.Lib.Pipeline.Value
import Idealize.ShloMosaic.Lib.ValueIdx

set_option maxRecDepth 16384

noncomputable section

namespace Cert.KernelIdeal.FrameD

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem hz : (![0, 0] : Fin 2 → Nat) = fun _ => 0 := funext fun a => by fin_cases a <;> rfl

/-- A later tile's store, over the blocks read. -/
theorem outB_eq (c : Dev nD) (i : grid0.Coords) (arg2 : Memref sig .tc .vmem S512x4096 .f32) (harg2 : arg2.IsWhole) (arg4 : Memref sig .tc .vmem S1x2048 .f32) (harg4 : arg4.IsWhole) (arg5 : Memref sig .tc .vmem S512x2048 .f32) (harg5 : arg5.IsWhole) (arg6 : Memref sig .tc .vmem S2048x4096 .bf16) (harg6 : arg6.IsWhole) (hc1 : ¬ k0_cond1 i = 1#1) (hc2 : k0_cond2 i = 1#1)
    (x0 : Vec F S512x4096 .f32) (x1 : Vec F S1x2048 .f32) (xs : Vec F S2048x4096 .bf16) :
    outB c i arg2 harg2 arg4 harg4 arg5 harg5 arg6 harg6 hc1 hc2 x0 x1 xs = k0_pay3 x0 xs x1 := by
  unfold outB
  rw [View.read_writes_eq_canon _ _ _ (coverB c i arg2 harg2 arg4 harg4 arg5 harg5 arg6 harg6 hc1 hc2 x0 x1 xs)]
  unfold kernelRunB
  dsimp only
  rw [View.canon_unit_zero hz]
  simp only [View.readAt_eq_ld, harg2.read_unread, harg4.read_unread, harg6.read_unread, View.ld_unit_zero (S := S512x4096) hz, View.ld_unit_zero (S := S1x2048) hz, View.ld_unit_zero (S := S2048x4096) hz]

/-- The first weight row of the half the point lies in, as the body computes it. -/
def rowOff (i : grid0.Coords) : Nat := (k0_off1 i) 0
theorem rowOff_le (i : grid0.Coords) (hc1 : k0_cond1 i = 1#1) : rowOff i + 2048 ≤ 4096 := k0_off1_inb i hc1 0

/-- The 2048 rows of the weight matrix from row `o` on. -/
def wRows (fh : S4096x4096.Idx → Elt F .bf16) (o : Nat) (ho : o + 2048 ≤ 4096) : Vec F S2048x4096 .bf16 :=
  fun y => fh (ValueIdx.ix2 (⟨o + (y 0).val, by have h : (y 0).val < 2048 := (y 0).isLt; omega⟩ : Fin 4096) (⟨(y 1).val, (y 1).isLt⟩ : Fin 4096))

/-- The scratch buffer after the first tile of a half: that half's weight rows. -/
theorem soutA_eq (c : Dev nD) (i : grid0.Coords) (arg2 : Memref sig .tc .vmem S512x4096 .f32) (harg2 : arg2.IsWhole) (arg4 : Memref sig .tc .vmem S1x2048 .f32) (harg4 : arg4.IsWhole) (arg5 : Memref sig .tc .vmem S512x2048 .f32) (harg5 : arg5.IsWhole) (arg6 : Memref sig .tc .vmem S2048x4096 .bf16) (harg6 : arg6.IsWhole) (hc1 : k0_cond1 i = 1#1) (hc2 : ¬ k0_cond2 i = 1#1)
    (x0 : Vec F S512x4096 .f32) (x1 : Vec F S1x2048 .f32) (fh : HbBuf (F := F) c hbM) :
    soutA c i arg2 harg2 arg4 harg4 arg5 harg5 arg6 harg6 hc1 hc2 x0 x1 fh = wRows fh (rowOff i) (rowOff_le i hc1) := by
  unfold soutA
  rw [View.read_writes_eq_canon _ _ _ (scoverA c i arg2 harg2 arg4 harg4 arg5 harg5 arg6 harg6 hc1 hc2 x0 x1 fh)]
  funext y
  refine View.canon_apply_of_pieces (wRows fh (rowOff i) (rowOff_le i hc1)) _ ?_ y (scoverA c i arg2 harg2 arg4 harg4 arg5 harg5 arg6 harg6 hc1 hc2 x0 x1 fh y)
  unfold kernelRunA
  dsimp only
  sl_unfold_words
  intro p hp
  simp only [List.mem_cons, List.mem_nil_iff, or_false] at hp
  rcases hp with rfl | rfl | rfl | rfl
  all_goals
    intro x
    refine congrArg (fh : S4096x4096.Idx → Elt F .bf16) (funext fun a => Fin.ext ?_)
    match a with
    | ⟨0, _⟩ => exact (fun (A B : Nat) => (by omega : A + 1 * B = A + (0 + 1 * B))) _ _
    | ⟨1, _⟩ => exact (fun (A B : Nat) => (by omega : A + 1 * B = A + 1 * B)) _ _

/-- The output tile after the first tile of a half: the four band products of the rows of `x` with the half's
    weight rows, added to zero in order, plus the bias. -/
theorem outA_eq (c : Dev nD) (i : grid0.Coords) (arg2 : Memref sig .tc .vmem S512x4096 .f32) (harg2 : arg2.IsWhole) (arg4 : Memref sig .tc .vmem S1x2048 .f32) (harg4 : arg4.IsWhole) (arg5 : Memref sig .tc .vmem S512x2048 .f32) (harg5 : arg5.IsWhole) (arg6 : Memref sig .tc .vmem S2048x4096 .bf16) (harg6 : arg6.IsWhole) (hc1 : k0_cond1 i = 1#1) (hc2 : ¬ k0_cond2 i = 1#1)
    (x0 : Vec F S512x4096 .f32) (x1 : Vec F S1x2048 .f32) (fh : HbBuf (F := F) c hbM) :
    outA c i arg2 harg2 arg4 harg4 arg5 harg5 arg6 harg6 hc1 hc2 x0 x1 fh
      = k0_pay2 x0
          (k0_pay4 (k0_pay1 x0) (View.ld (wRows fh (rowOff i) (rowOff_le i hc1)) (Rect.unit (s := S2048x4096) ![0, 0] S2048x1024.size inb_S2048x4096_S2048x1024_0_0)))
          (View.ld (wRows fh (rowOff i) (rowOff_le i hc1)) (Rect.unit (s := S2048x4096) ![0, 1024] S2048x1024.size inb_S2048x4096_S2048x1024_0_1024))
          (View.ld (wRows fh (rowOff i) (rowOff_le i hc1)) (Rect.unit (s := S2048x4096) ![0, 2048] S2048x1024.size inb_S2048x4096_S2048x1024_0_2048))
          (View.ld (wRows fh (rowOff i) (rowOff_le i hc1)) (Rect.unit (s := S2048x4096) ![0, 3072] S2048x1024.size inb_S2048x4096_S2048x1024_0_3072))
          x1 := by
  have hcan : View.canon (kernelRunA c i arg2 harg2 arg4 harg4 arg5 harg5 arg6 harg6 hc1 hc2 x0 x1 fh).2.1 = wRows fh (rowOff i) (rowOff_le i hc1) :=
    (View.read_writes_junk_eq_canon VS _).symm.trans (soutA_eq c i arg2 harg2 arg4 harg4 arg5 harg5 arg6 harg6 hc1 hc2 x0 x1 fh)
  unfold outA
  rw [View.read_writes_eq_canon _ _ _ (coverA c i arg2 harg2 arg4 harg4 arg5 harg5 arg6 harg6 hc1 hc2 x0 x1 fh)]
  revert hcan
  unfold kernelRunA
  dsimp only
  sl_unfold_words
  intro hcan
  rw [View.canon_unit_zero hz]
  simp only [View.readAt_eq_ld, harg2.read_unread, harg4.read_unread, View.ld_unit_zero (S := S512x4096) hz, View.ld_unit_zero (S := S1x2048) hz, View.readCov_eq_canon', hcan]

end Cert.KernelIdeal.FrameD

end
-- ==== Proof.LibDotSumT.lean ====
/-
  A matrix product against a TRANSPOSED right factor, read at an entry.  For dimension numbers `d` of a product
  `[A,K] × [N,K] → [A,N]` (one contracted axis: the columns of the left factor against the columns of the right
  one — "x · Wᵀ" —, no batch axis) the sum over the contraction index of the factors' products, at the entry
  `(p, j)`, is the textbook sum `∑ k, l (p, k) · r (j, k)` over `Fin K`.  The four coordinate facts
  `hl0 … hr1` say what the dimension numbers mean; they are proved once per record, at literal extents.  A
  `tpu.matmul` into a zero accumulator and the host's `dot_general` with these dimension numbers are that sum on
  the extended reals.
-/
import Idealize.ShloMosaic.Lib.ValueIdx
import Idealize.ShloMosaic.PureOps.Ideal.Laws

noncomputable section

namespace Cert.DotSumT

open Idealize.ShloMosaic Idealize.ShloMosaic.ValueIdx

/-- The contraction sum of a product against a transposed right factor at the entry `(p, j)`, over `Fin K`. -/
theorem contr_sum_T {A K N : ℕ} (d : DotDims ⟨2, ![A, K]⟩ ⟨2, ![N, K]⟩ ⟨2, ![A, N]⟩)
    (hr : d.contr.rank = 1) (hs : d.contr.size ⟨0, by omega⟩ = K)
    (hl0 : ∀ (i : (⟨2, ![A, N]⟩ : Shape).Idx) (q : d.contr.Idx), (d.lhsIdx i q 0).val = (i 0).val)
    (hl1 : ∀ (i : (⟨2, ![A, N]⟩ : Shape).Idx) (q : d.contr.Idx), (d.lhsIdx i q 1).val = (q ⟨0, by omega⟩).val)
    (hr0 : ∀ (i : (⟨2, ![A, N]⟩ : Shape).Idx) (q : d.contr.Idx), (d.rhsIdx i q 0).val = (i 1).val)
    (hr1 : ∀ (i : (⟨2, ![A, N]⟩ : Shape).Idx) (q : d.contr.Idx), (d.rhsIdx i q 1).val = (q ⟨0, by omega⟩).val)
    (l : (⟨2, ![A, K]⟩ : Shape).Idx → EReal) (r : (⟨2, ![N, K]⟩ : Shape).Idx → EReal) (p : Fin A) (j : Fin N) :
    ∑ q : d.contr.Idx, l (d.lhsIdx (ix2 p j) q) * r (d.rhsIdx (ix2 p j) q) = ∑ k : Fin K, l (ix2 p k) * r (ix2 j k) := by
  rw [← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 j k := funext fun a => Fin.ext (by
    match a with
    | ⟨0, _⟩ => exact hr0 _ _
    | ⟨1, _⟩ => exact (hr1 _ _).trans hk)
  rw [el, er]

end Cert.DotSumT

end
-- ==== Proof.LibBlockSum.lean ====
/-
  A sum of `a * b` terms taken in `a` consecutive blocks of `b` terms, in any commutative additive monoid (the extended
  reals included: only commutativity and associativity of `+` are used, so infinite terms are allowed).
-/
import Mathlib.Algebra.BigOperators.Fin

namespace Cert.BlockSum

/-- The sum over `Fin (a * b)` is the sum over the `a` blocks of the sums inside each block: term `k = b * i + j`
    is term `j` of block `i`. -/
theorem sum_blocks {M : Type*} [AddCommMonoid M] (a b : ℕ) (f : ℕ → M) :
    ∑ k : Fin (a * b), f k.val = ∑ i : Fin a, ∑ j : Fin b, f (b * i.val + j.val) := by
  rw [← Fintype.sum_prod_type' (f := fun (i : Fin a) (j : Fin b) => f (b * i.val + j.val))]
  refine (Fintype.sum_equiv finProdFinEquiv _ _ (fun p => ?_)).symm
  simp [finProdFinEquiv, add_comm]

end Cert.BlockSum
-- ==== Proof.KI.Tile.lean ====
/-
  One output tile as a function of the blocks the body reads, on the extended reals.

  A tile is `512 × 2048`: entry `(p, q)` is `∑ₖ x(p, k) · w(q, k) + b(q)`, `x` the tile's 512 rows of the
  input, `w` the 2048 weight rows of the tile's half, `b` the half's bias.  A later tile of a half computes it by
  one product over all 4096 columns; the first tile of a half by four products over the column bands
  `[0,1024), [1024,2048), [2048,3072), [3072,4096)`, added to zero in that order.  Over the extended reals
  addition is associative and commutative whatever the entries, so the four band sums add up to the whole sum: no
  finiteness is needed.  A change of float format is the identity here, so the bf16 casts drop out.
-/
import proofs.«130494_j30803505447137_2_alg».proof.Proof.Gen.KernelIdeal.Skeleton
import proofs.«130494_j30803505447137_2_alg».proof.Proof.LibDotSumT
import proofs.«130494_j30803505447137_2_alg».proof.Proof.LibBlockSum
import Idealize.ShloMosaic.Lib.ValueIdx
import Idealize.ShloMosaic.Lib.Pipeline.Value
import Idealize.ShloMosaic.Lib.Pipeline.FrameBody
import Idealize.ShloMosaic.PureOps.Ideal.Laws

set_option maxRecDepth 16384

noncomputable section

namespace Cert.KernelIdeal.Tile

open Cert.KernelIdeal Cert.KernelIdeal.Gen
open Idealize.ShloMosaic Idealize.ShloMosaic.TcCoe Idealize.ShloMosaic.ValueIdx

/-- Entry `(p, q)` of a tile: the row of `x` against the row of `w`, plus the bias. -/
def tileVal (x : S512x4096.Idx → EReal) (w : S2048x4096.Idx → EReal) (b : S1x2048.Idx → EReal) : S512x2048.Idx → EReal :=
  fun j => (∑ k : Fin 4096, x (ix2 (j 0) k) * w (ix2 (j 1) k)) + b (ix2 0 (j 1))

/-! ## The two products' dimension numbers -/

local notation "dW" => dot_S512x4096_S2048x4096_S512x2048_1_1_0_0_n_n
local notation "dB" => dot_S512x1024_S2048x1024_S512x2048_1_1_0_0_n_n

theorem dW_l0 (i : S512x2048.Idx) (q : dot_S512x4096_S2048x4096_S512x2048_1_1_0_0_n_n.contr.Idx) :
    (dot_S512x4096_S2048x4096_S512x2048_1_1_0_0_n_n.lhsIdx i q 0).val = (i 0).val := by
  unfold DotDims.lhsIdx
  rw [dif_neg (show ¬(0 : Fin S512x4096.rank) ∈ dot_S512x4096_S2048x4096_S512x2048_1_1_0_0_n_n.lhsBatch by decide), dif_pos (show (0 : Fin S512x4096.rank) ∈ dot_S512x4096_S2048x4096_S512x2048_1_1_0_0_n_n.lhsNonContracting by decide)]
  rfl
theorem dW_l1 (i : S512x2048.Idx) (q : dot_S512x4096_S2048x4096_S512x2048_1_1_0_0_n_n.contr.Idx) :
    (dot_S512x4096_S2048x4096_S512x2048_1_1_0_0_n_n.lhsIdx i q 1).val = (q ⟨0, by decide⟩).val :=
  dot_S512x4096_S2048x4096_S512x2048_1_1_0_0_n_n.lhsIdx_val_of_single rfl i q
theorem dW_r0 (i : S512x2048.Idx) (q : dot_S512x4096_S2048x4096_S512x2048_1_1_0_0_n_n.contr.Idx) :
    (dot_S512x4096_S2048x4096_S512x2048_1_1_0_0_n_n.rhsIdx i q 0).val = (i 1).val := by
  unfold DotDims.rhsIdx
  rw [dif_neg (show ¬(0 : Fin S2048x4096.rank) ∈ dot_S512x4096_S2048x4096_S512x2048_1_1_0_0_n_n.rhsBatch by decide), dif_pos (show (0 : Fin S2048x4096.rank) ∈ dot_S512x4096_S2048x4096_S512x2048_1_1_0_0_n_n.rhsNonContracting by decide)]
  rfl
theorem dW_r1 (i : S512x2048.Idx) (q : dot_S512x4096_S2048x4096_S512x2048_1_1_0_0_n_n.contr.Idx) :
    (dot_S512x4096_S2048x4096_S512x2048_1_1_0_0_n_n.rhsIdx i q 1).val = (q ⟨0, by decide⟩).val :=
  dot_S512x4096_S2048x4096_S512x2048_1_1_0_0_n_n.rhsIdx_val_of_single rfl i q

theorem dB_l0 (i : S512x2048.Idx) (q : dot_S512x1024_S2048x1024_S512x2048_1_1_0_0_n_n.contr.Idx) :
    (dot_S512x1024_S2048x1024_S512x2048_1_1_0_0_n_n.lhsIdx i q 0).val = (i 0).val := by
  unfold DotDims.lhsIdx
  rw [dif_neg (show ¬(0 : Fin S512x1024.rank) ∈ dot_S512x1024_S2048x1024_S512x2048_1_1_0_0_n_n.lhsBatch by decide), dif_pos (show (0 : Fin S512x1024.rank) ∈ dot_S512x1024_S2048x1024_S512x2048_1_1_0_0_n_n.lhsNonContracting by decide)]
  rfl
theorem dB_l1 (i : S512x2048.Idx) (q : dot_S512x1024_S2048x1024_S512x2048_1_1_0_0_n_n.contr.Idx) :
    (dot_S512x1024_S2048x1024_S512x2048_1_1_0_0_n_n.lhsIdx i q 1).val = (q ⟨0, by decide⟩).val :=
  dot_S512x1024_S2048x1024_S512x2048_1_1_0_0_n_n.lhsIdx_val_of_single rfl i q
theorem dB_r0 (i : S512x2048.Idx) (q : dot_S512x1024_S2048x1024_S512x2048_1_1_0_0_n_n.contr.Idx) :
    (dot_S512x1024_S2048x1024_S512x2048_1_1_0_0_n_n.rhsIdx i q 0).val = (i 1).val := by
  unfold DotDims.rhsIdx
  rw [dif_neg (show ¬(0 : Fin S2048x1024.rank) ∈ dot_S512x1024_S2048x1024_S512x2048_1_1_0_0_n_n.rhsBatch by decide), dif_pos (show (0 : Fin S2048x1024.rank) ∈ dot_S512x1024_S2048x1024_S512x2048_1_1_0_0_n_n.rhsNonContracting by decide)]
  rfl
theorem dB_r1 (i : S512x2048.Idx) (q : dot_S512x1024_S2048x1024_S512x2048_1_1_0_0_n_n.contr.Idx) :
    (dot_S512x1024_S2048x1024_S512x2048_1_1_0_0_n_n.rhsIdx i q 1).val = (q ⟨0, by decide⟩).val :=
  dot_S512x1024_S2048x1024_S512x2048_1_1_0_0_n_n.rhsIdx_val_of_single rfl i q

/-! ## The pieces of the body's arithmetic at an entry -/

/-- The bf16 cast of the rows of `x` is the rows of `x`. -/
theorem pay1_eq (x : Vec Ideal S512x4096 .f32) : (k0_pay1 (F := Ideal) x : S512x4096.Idx → EReal) = x := by
  unfold k0_pay1
  rw [shapeCast_self]
  rfl

/-- The bias row spread over the tile's 512 rows, at an entry. -/
theorem bias_apply (b : Vec Ideal S1x2048 .f32) (p : Fin 512) (q : Fin 2048) :
    (broadcastTo S512x2048 (shapeCast S1x2048 b shapeCasts_S1x2048_S1x2048) broadcasts_S1x2048_S512x2048 : S512x2048.Idx → EReal) (ix2 p q)
      = b (ix2 0 q) := by
  rw [shapeCast_self]
  exact broadcastTo_apply _ broadcasts_S1x2048_S512x2048 (ix2 p q) (ix2 0 q) (fun a => by
    match a with
    | ⟨0, _⟩ => show (0 : Nat) = if (1 : Nat) = 1 then 0 else _; rw [if_pos rfl]
    | ⟨1, _⟩ => show q.val = if (2048 : Nat) = 1 then 0 else q.val; rw [if_neg (by decide)])

/-- The whole product at an entry. -/
theorem whole_apply (x : Vec Ideal S512x4096 .f32) (w : FVec Ideal S2048x4096 .bf16) (p : Fin 512) (q : Fin 2048) :
    (matmul dot_S512x4096_S2048x4096_S512x2048_1_1_0_0_n_n none (k0_pay1 (F := Ideal) x) w (constant S512x2048 .f32 0x00000000#32) : S512x2048.Idx → EReal) (ix2 p q)
      = ∑ k : Fin 4096, x (ix2 p k) * w (ix2 q k) := by
  rw [pay1_eq]
  refine (Ideal.matmul_constant_zero_apply _ none _ _ (ix2 p q)).trans ?_
  exact Cert.DotSumT.contr_sum_T dot_S512x4096_S2048x4096_S512x2048_1_1_0_0_n_n rfl rfl dW_l0 dW_l1 dW_r0 dW_r1 x w p q

/-- A later tile of a half: one product, plus the bias. -/
theorem pay3_eq (x : Vec Ideal S512x4096 .f32) (w : FVec Ideal S2048x4096 .bf16) (b : Vec Ideal S1x2048 .f32) :
    (k0_pay3 (F := Ideal) x w b : S512x2048.Idx → EReal) = tileVal x w b := by
  funext j
  obtain ⟨p, q, rfl⟩ : ∃ (p : Fin 512) (q : Fin 2048), j = ix2 p q := ⟨j 0, j 1, eq_ix2 j⟩
  unfold k0_pay3 tileVal
  refine (addf_apply _ _ _).trans ?_
  rw [whole_apply, bias_apply]

/-! ## The first tile of a half: four bands -/

/-- A sum of `4·n` terms is the sum of its four consecutive bands of `n` terms. -/
theorem sum_bands4 {M : Type*} [AddCommMonoid M] (n o1 o2 o3 N : ℕ) (h1 : o1 = n) (h2 : o2 = 2 * n) (h3 : o3 = 3 * n) (hN : N = 4 * n)
    (f : ℕ → M) :
    ∑ k : Fin N, f k.val = (∑ k : Fin n, f (0 + k.val)) + (∑ k : Fin n, f (o1 + k.val)) + (∑ k : Fin n, f (o2 + k.val)) + (∑ k : Fin n, f (o3 + k.val)) := by
  subst h1 h2 h3 hN
  rw [Cert.BlockSum.sum_blocks 4 o1 f, Fin.sum_univ_four]
  have e0 : ((0 : Fin 4) : ℕ) = 0 := rfl
  have e1 : ((1 : Fin 4) : ℕ) = 1 := rfl
  have e2 : ((2 : Fin 4) : ℕ) = 2 := rfl
  have e3 : ((3 : Fin 4) : ℕ) = 3 := rfl
  simp only [e0, e1, e2, e3, Nat.mul_zero, Nat.mul_one, Nat.mul_comm o1 2, Nat.mul_comm o1 3]

/-- One band's product at an entry: the columns `[o, o + 1024)` of the rows of `x` against the same columns of the
    weight rows. -/
theorem band_apply (o : Nat) (ho : o + 1024 ≤ 4096) (hs : S512x4096.Slices ![0, o] S512x1024)
    (inb : ∀ a, (![0, o] : Fin 2 → Nat) a + S2048x1024.size a ≤ S2048x4096.size a)
    (x : Vec Ideal S512x4096 .f32) (W : FVec Ideal S2048x4096 .bf16) (p : Fin 512) (q : Fin 2048) :
    (matmul (φ₁ := .bf16) (φ₂ := .bf16) dot_S512x1024_S2048x1024_S512x2048_1_1_0_0_n_n none (extractStridedSlice S512x1024 ![0, o] (k0_pay1 (F := Ideal) x) hs)
        (View.ld (Val := Elt Ideal) (e' := EltTy.bf16) W (Rect.unit (s := S2048x4096) ![0, o] S2048x1024.size inb)) (constant S512x2048 .f32 0x00000000#32) : S512x2048.Idx → EReal) (ix2 p q)
      = ∑ k : Fin 1024, x (ix2 p ⟨o + k.val, by have := k.isLt; omega⟩) * W (ix2 q ⟨o + k.val, by have := k.isLt; omega⟩) := by
  rw [pay1_eq]
  refine (Ideal.matmul_constant_zero_apply (φ₁ := .bf16) (φ₂ := .bf16) dot_S512x1024_S2048x1024_S512x2048_1_1_0_0_n_n none _ _ (ix2 p q)).trans ?_
  refine (Cert.DotSumT.contr_sum_T dot_S512x1024_S2048x1024_S512x2048_1_1_0_0_n_n rfl rfl dB_l0 dB_l1 dB_r0 dB_r1 _ _ p q).trans ?_
  refine Finset.sum_congr rfl fun k _ => ?_
  congr 1
  · exact extractStridedSlice_apply ![0, o] x hs (ix2 p k) (ix2 p ⟨o + k.val, by have := k.isLt; omega⟩) (fun a => by
      match a with
      | ⟨0, _⟩ => show p.val = 0 + p.val; omega
      | ⟨1, _⟩ => rfl)
  · refine congrArg W (funext fun a => Fin.ext ?_)
    match a with
    | ⟨0, _⟩ => exact (fun (B : Nat) => (by omega : 0 + 1 * B = B)) _
    | ⟨1, _⟩ => exact (fun (A B : Nat) => (by omega : A + 1 * B = A + B)) _ _

/-- The first tile of a half: the four band products added to zero in order, plus the bias, is the tile. -/
theorem pay2_eq (x : Vec Ideal S512x4096 .f32) (W : FVec Ideal S2048x4096 .bf16) (b : Vec Ideal S1x2048 .f32) :
    (k0_pay2 (F := Ideal) x
        (k0_pay4 (F := Ideal) (k0_pay1 (F := Ideal) x) (View.ld W (Rect.unit (s := S2048x4096) ![0, 0] S2048x1024.size inb_S2048x4096_S2048x1024_0_0)))
        (View.ld W (Rect.unit (s := S2048x4096) ![0, 1024] S2048x1024.size inb_S2048x4096_S2048x1024_0_1024))
        (View.ld W (Rect.unit (s := S2048x4096) ![0, 2048] S2048x1024.size inb_S2048x4096_S2048x1024_0_2048))
        (View.ld W (Rect.unit (s := S2048x4096) ![0, 3072] S2048x1024.size inb_S2048x4096_S2048x1024_0_3072)) b : S512x2048.Idx → EReal)
      = tileVal x W b := by
  funext j
  obtain ⟨p, q, rfl⟩ : ∃ (p : Fin 512) (q : Fin 2048), j = ix2 p q := ⟨j 0, j 1, eq_ix2 j⟩
  unfold k0_pay2 k0_pay4 tileVal
  dsimp only
  simp only [addf_apply, broadcast_apply]
  rw [band_apply 0 (by omega), band_apply 1024 (by omega), band_apply 2048 (by omega), band_apply 3072 (by omega), bias_apply]
  simp only [Ideal.ofBits_def, Ideal.ofBits_zero_f32, zero_add]
  show _ + b (ix2 0 q) = (∑ k : Fin 4096, x (ix2 p k) * W (ix2 q k)) + b (ix2 0 q)
  congr 1
  let f : ℕ → EReal := fun n => if h : n < 4096 then x (ix2 p ⟨n, h⟩) * W (ix2 q ⟨n, h⟩) else 0
  have hF : (∑ k : Fin 4096, x (ix2 p k) * W (ix2 q k)) = ∑ k : Fin 4096, f k.val :=
    Finset.sum_congr rfl fun k _ => by simp only [f]; rw [dif_pos k.isLt]
  rw [hF, sum_bands4 1024 1024 2048 3072 4096 rfl rfl rfl rfl f]
  congr 1

end Cert.KernelIdeal.Tile

end
-- ==== Proof.KI.Points.lean ====
/-
  From the tiles to the whole result array.

  Point `t` is row tile `t % 16` of output half `t / 16`.  Its tile is `x · wᵀ + b` of rows `512·(t%16) ..` of
  the input, weight rows `2048·(t/16) ..` and bias entries `2048·(t/16) ..` — whether it is the first tile of its
  half (the weight rows just copied in) or a later one (the scratch buffer still holding them).  So every tile is
  the restriction of ONE function of the whole arrays: entry `(r, n)` is `∑ₖ X(r, k) · W(n, k) + B(n)`.  The
  32 tiles tile the `8192 × 4096` result, each written back once, so the result array ends at that function.
-/
import proofs.«130494_j30803505447137_2_alg».proof.Proof.KI.Pieces
import proofs.«130494_j30803505447137_2_alg».proof.Proof.KI.Tile

set_option maxRecDepth 16384

noncomputable section

namespace Cert.KernelIdeal.FrameD

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Tile Idealize.ShloMosaic.ValueIdx

variable (m : (ℓ : Loc nD τ sig) → Buf (Elt Ideal) ℓ) (ρ : Dev nD → PrngReg)

/-- The first weight row of point `t`'s half. -/
theorem rowOff_pt : ∀ t : Fin cfg0.N, rowOff (grid0.coords t) = 2048 * (t.val / 16) :=
  (by decide +kernel : ∀ t : Fin grid0.N, (k0_off1 (grid0.coords t)) 0 = 2048 * (t.val / 16))

theorem wRows_congr (fh : S4096x4096.Idx → Elt Ideal .bf16) (o o' : Nat) (e : o = o') (ho : o + 2048 ≤ 4096) (ho' : o' + 2048 ≤ 4096) :
    wRows fh o ho = wRows fh o' ho' := by subst e; rfl

/-- The weight rows of point `t`'s half. -/
def wHalf (c : Dev nD) (t : Fin cfg0.N) : Vec Ideal S2048x4096 .bf16 :=
  wRows (V m c main_v14) (2048 * (t.val / 16)) (by have := t.isLt; have := N32; omega)

/-- Every tile, first of its half or later, is the product of its rows of `x` with its half's weight rows, plus
    its half's bias. -/
theorem outAt_eq (c : Dev nD) (t : Fin cfg0.N) :
    outAt m c t = tileVal (iblk m c 0 t) (wHalf m c t) (iblk m c 1 t) := by
  unfold outAt
  by_cases h : t.val % 16 = 0
  · rw [dif_pos h, outA_eq, pay2_eq]
    exact congrArg (fun w => tileVal (iblk m c 0 t) w (iblk m c 1 t)) (wRows_congr _ _ _ (rowOff_pt t) _ _)
  · rw [dif_neg h, outB_eq, pay3_eq]
    refine congrArg (fun w => tileVal (iblk m c 0 t) w (iblk m c 1 t)) ?_
    unfold scrAt scrOf
    rw [soutA_eq]
    exact wRows_congr _ _ _ ((rowOff_pt _).trans (by
      show 2048 * ((t.val - 1) / 16 * 16 / 16) = 2048 * (t.val / 16)
      have := t.isLt; omega)) _ _

/-- The whole result: `X · Wᵀ + B`. -/
def Gk (X : S8192x4096.Idx → EReal) (Wb : S4096x4096.Idx → EReal) (B : S1x4096.Idx → EReal) : S8192x4096.Idx → EReal :=
  fun j => (∑ k : Fin 4096, X (ix2 (j 0) k) * Wb (ix2 (j 1) k)) + B (ix2 0 (j 1))

/-- The windows' block indices at point `t`: the rows of `x` and of the output move with `t % 16`, the bias and
    the output's columns with `t / 16`. -/
theorem idx_facts : ∀ t : Fin cfg0.N, win0_0.index t (0 : Fin 2) = t.val % 16 ∧ win0_0.index t (1 : Fin 2) = 0
    ∧ win0_1.index t (0 : Fin 2) = 0 ∧ win0_1.index t (1 : Fin 2) = t.val / 16
    ∧ win0_2.index t (0 : Fin 2) = t.val % 16 ∧ win0_2.index t (1 : Fin 2) = t.val / 16 :=
  (by decide +kernel : ∀ t : Fin grid0.N, _)

theorem iblk0_eq (c : Dev nD) (t : Fin cfg0.N) :
    iblk m c 0 t = fun y => V m c main_v16 (((cfg0.win 0).blk t).view.emb y) := rfl
theorem iblk1_eq (c : Dev nD) (t : Fin cfg0.N) :
    iblk m c 1 t = fun y => V m c main_v15 (((cfg0.win 1).blk t).view.emb y) := rfl

/-- A tile read off the blocks of any three arrays is the whole function read at the tile's place: the rows of
    `X` at `512·(t%16) + p`, the weight rows and the bias at `2048·(t/16) + q`. -/
theorem tile_of_blocks (X : S8192x4096.Idx → EReal) (Wb : S4096x4096.Idx → EReal) (B : S1x4096.Idx → EReal)
    (t : Fin cfg0.N) (ho : 2048 * (t.val / 16) + 2048 ≤ 4096) (j : S512x2048.Idx) :
    tileVal (fun y => X (((cfg0.win 0).blk t).view.emb y)) (wRows (F := Ideal) Wb (2048 * (t.val / 16)) ho)
        (fun y => B (((cfg0.win 1).blk t).view.emb y)) j
      = Gk X Wb B (((cfg0.win 2).blk t).view.emb j) := by
  obtain ⟨e0, e1, e2, e3, e4, e5⟩ := idx_facts t
  unfold tileVal Gk wRows
  have hj0 : (j 0).val < 512 := (j 0).isLt
  have hj1 : (j 1).val < 2048 := (j 1).isLt
  congr 1
  · refine Finset.sum_congr rfl fun k _ => ?_
    congr 1
    · refine congrArg X (funext fun a => Fin.ext ?_)
      match a with
      | ⟨0, _⟩ => show win0_0.index t (0 : Fin 2) * 512 + 1 * (j 0).val = win0_2.index t (0 : Fin 2) * 512 + 1 * (j 0).val; omega
      | ⟨1, _⟩ => show win0_0.index t (1 : Fin 2) * 4096 + 1 * k.val = k.val; omega
    · refine congrArg Wb (funext fun a => Fin.ext ?_)
      match a with
      | ⟨0, _⟩ => show 2048 * (t.val / 16) + (j 1).val = win0_2.index t (1 : Fin 2) * 2048 + 1 * (j 1).val; omega
      | ⟨1, _⟩ => rfl
  · refine congrArg B (funext fun a => Fin.ext ?_)
    match a with
    | ⟨0, _⟩ => show win0_1.index t (0 : Fin 2) * 1 + 1 * 0 = 0; omega
    | ⟨1, _⟩ => show win0_1.index t (1 : Fin 2) * 2048 + 1 * (j 1).val = win0_2.index t (1 : Fin 2) * 2048 + 1 * (j 1).val; omega

/-- What point `t` writes back is block `t` of the whole result. -/
theorem flushed_eq (c : Dev nD) (t : Fin cfg0.N) :
    (dats m 0 c).flushed 2 t = ((cfg0.win 2).blk t).view.read (Elt Ideal) (Gk (V m c main_v16) (V m c main_v14) (V m c main_v15)) := by
  show (cfg0.win 2).cut (grid0.coords t) ((dats m 0 c).after 2 t) = _
  rw [after2, outAt_eq, iblk0_eq, iblk1_eq]
  unfold wHalf
  generalize V m c main_v16 = X
  generalize V m c main_v14 = Wb
  generalize V m c main_v15 = B
  funext j
  exact tile_of_blocks X Wb B t _ j

theorem mem_blk (t : Fin cfg0.N) (i : S8192x4096.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v17).slice (win0_2.rect t)).set ↔ _
  rw [View.set_slice_whole, Rect.mem_set_unit]
  exact Iff.rfl

/-- The result array after the region: `X · Wᵀ + B` of the arrays the region found. -/
theorem final (c : Dev nD) : (dats m 0 c).arrAt 2 cfg0.N = Gk (V m c main_v16) (V m c main_v14) (V m c main_v15) :=
  (dats m 0 c).arrAt_eq_of_cover 2 _ (fun t _ => flushed_eq m c t) (fun i => by
    have hi0 : (i 0).val < 8192 := (i 0).isLt
    have hi1 : (i 1).val < 4096 := (i 1).isLt
    have hn : 16 * ((i 1).val / 2048) + (i 0).val / 512 < cfg0.N := by rw [N32]; omega
    obtain ⟨e0, e1, e2, e3, e4, e5⟩ := idx_facts ⟨16 * ((i 1).val / 2048) + (i 0).val / 512, hn⟩
    have e4' : win0_2.index ⟨16 * ((i 1).val / 2048) + (i 0).val / 512, hn⟩ (0 : Fin 2) = (16 * ((i 1).val / 2048) + (i 0).val / 512) % 16 := e4
    have e5' : win0_2.index ⟨16 * ((i 1).val / 2048) + (i 0).val / 512, hn⟩ (1 : Fin 2) = (16 * ((i 1).val / 2048) + (i 0).val / 512) / 16 := e5
    refine ⟨⟨16 * ((i 1).val / 2048) + (i 0).val / 512, hn⟩, flush0_2 _, ?_⟩
    rw [mem_blk]
    intro a
    match a with
    | ⟨0, _⟩ =>
      show win0_2.index ⟨16 * ((i 1).val / 2048) + (i 0).val / 512, hn⟩ (0 : Fin 2) * 512 ≤ (i 0).val ∧ (i 0).val < win0_2.index ⟨16 * ((i 1).val / 2048) + (i 0).val / 512, hn⟩ (0 : Fin 2) * 512 + 512
      rw [e4']; omega
    | ⟨1, _⟩ =>
      show win0_2.index ⟨16 * ((i 1).val / 2048) + (i 0).val / 512, hn⟩ (1 : Fin 2) * 2048 ≤ (i 1).val ∧ (i 1).val < win0_2.index ⟨16 * ((i 1).val / 2048) + (i 0).val / 512, hn⟩ (1 : Fin 2) * 2048 + 2048
      rw [e5']; omega)

end Cert.KernelIdeal.FrameD

end
-- ==== Proof.Spec.lean ====
/-
  The linear layer both programs compute: `out[b, s, o] = ∑ᵢ x[b, s, i] · W[o, i] + bias[o]` on the extended reals,
  for `x` of shape `[4, 2048, 4096]`, a weight matrix `W` of shape `[4096, 4096]` (rows indexed by the output
  feature) and a bias of `4096` entries.
-/
import Idealize.ShloMosaic.Lib.ValueIdx
import Idealize.ShloMosaic.PureOps.Ideal

noncomputable section

namespace Cert.Spec

open Idealize.ShloMosaic Idealize.ShloMosaic.ValueIdx

/-- Entry `(b, s, o)` of the layer's result. -/
def linear (x : (⟨3, ![4, 2048, 4096]⟩ : Shape).Idx → EReal) (W : (⟨2, ![4096, 4096]⟩ : Shape).Idx → EReal)
    (b : (⟨1, ![4096]⟩ : Shape).Idx → EReal) : (⟨3, ![4, 2048, 4096]⟩ : Shape).Idx → EReal :=
  fun i => (∑ k : Fin 4096, x (ix3 (i 0) (i 1) k) * W (ix2 (i 2) k)) + b (ix1 (i 2))

end Cert.Spec

end
-- ==== Proof.KI.Value.lean ====
/-
  The kernel's result as a function of its arguments.

  Before the region the host lines build the weight matrix (codebook rows gathered by the assignments, laid out
  `[4096, 4096]`, scaled by row and by column, cast to bf16 — the identity on the extended reals), re-lay `x` as
  `[8192, 4096]` and the bias as `[1, 4096]`; after it one line re-lays the `[8192, 4096]` result as
  `[4, 2048, 4096]`.  Row `2048·b + s` of the flat result is entry `(b, s)` of the final one, so the final result is
  `∑ᵢ x[b,s,i] · W[o,i] + bias[o]`: the linear layer of the dequantized weight matrix.
-/
import proofs.«130494_j30803505447137_2_alg».proof.Proof.KI.Points
import proofs.«130494_j30803505447137_2_alg».proof.Proof.Spec
import Idealize.ShloMosaic.Lib.StableHlo.Run

set_option maxRecDepth 16384

noncomputable section

namespace Cert.KernelIdeal.FrameD

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Tile Idealize.ShloMosaic.ValueIdx

variable (m : (ℓ : Loc nD τ sig) → Buf (Elt Ideal) ℓ) (ρ : Dev nD → PrngReg)

/-- The dequantized weight matrix as the host lines build it. -/
def Wk (cb : FVec Ideal S4096x4 .f32) (asg : (⟨S4096x1024, .i32⟩ : BufTy).Contents (Elt Ideal)) (so si : FVec Ideal S4096 .f32) : FVec Ideal S4096x4096 .f32 :=
  mulf (F := Ideal) (mulf (F := Ideal) (shapeCast _ (Host.gather gather_S4096x4_S4096x1024x1_S4096x1024x4_2_0_n_n_0_2_14 cb (broadcastInDim S4096x1024x1 ![0, 1] bcast_S4096x1024_S4096x1024x1_0_1 (select (cmpi .slt asg (broadcastInDim S4096x1024 ![] bcast_S_S4096x1024 (constantI S_ 32 0#32))) (addi asg (broadcastInDim S4096x1024 ![] bcast_S_S4096x1024 (constantI S_ 32 4096#32))) asg))) shapeCasts_S4096x1024x4_S4096x4096) (broadcastInDim S4096x4096 ![0, 1] bcast_S4096x1_S4096x4096_0_1 (broadcastInDim S4096x1 ![0] bcast_S4096_S4096x1_0 so))) (broadcastInDim S4096x4096 ![0, 1] bcast_S1x4096_S4096x4096_0_1 (broadcastInDim S1x4096 ![1] bcast_S4096_S1x4096_1 si))

/-- The region finds the weight matrix, the bias row and the flat `x` at the host lines' terms. -/
theorem V_v14 (c : Dev nD) : (V m c main_v14 : S4096x4096.Idx → EReal) = Wk (m ((c : Thread nD τ).loc main_arg1)) (m ((c : Thread nD τ).loc main_arg2)) (m ((c : Thread nD τ).loc main_arg3)) (m ((c : Thread nD τ).loc main_arg4)) := by
  show StableHlo.after hostOps0 (fun b => m (c, b)) (Proc.devRef .tc main_v14) = _
  after_results <;> rfl

theorem V_v15 (c : Dev nD) : V m c main_v15 = shapeCast _ (m ((c : Thread nD τ).loc main_arg5)) shapeCasts_S4096_S1x4096 := by
  show StableHlo.after hostOps0 (fun b => m (c, b)) (Proc.devRef .tc main_v15) = _
  after_results <;> rfl

theorem V_v16 (c : Dev nD) : V m c main_v16 = shapeCast _ (m ((c : Thread nD τ).loc main_arg0)) shapeCasts_S4x2048x4096_S8192x4096 := by
  show StableHlo.after hostOps0 (fun b => m (c, b)) (Proc.devRef .tc main_v16) = _
  after_results <;> rfl

/-- The flat result re-laid is the linear layer, entry by entry. -/
theorem kernel_eq (x0 : S4x2048x4096.Idx → EReal) (W : S4096x4096.Idx → EReal) (x5 : S4096.Idx → EReal) :
    shapeCast S4x2048x4096 (Gk (shapeCast S8192x4096 x0 shapeCasts_S4x2048x4096_S8192x4096) W (shapeCast S1x4096 x5 shapeCasts_S4096_S1x4096)) shapeCasts_S8192x4096_S4x2048x4096
      = Cert.Spec.linear x0 W x5 := by
  funext i
  have h0 : (i 0).val < 4 := (i 0).isLt
  have h1 : (i 1).val < 2048 := (i 1).isLt
  have h2 : (i 2).val < 4096 := (i 2).isLt
  rw [shapeCast_apply _ shapeCasts_S8192x4096_S4x2048x4096 i (ix2 (⟨(i 0).val * 2048 + (i 1).val, by omega⟩ : Fin 8192) (⟨(i 2).val, h2⟩ : Fin 4096))
    (by rw [Shape.rowMajor_val_two, Shape.rowMajor_val_three]; rfl)]
  unfold Gk Cert.Spec.linear
  congr 1
  · refine Finset.sum_congr rfl fun k _ => ?_
    congr 1
    exact shapeCast_apply x0 shapeCasts_S4x2048x4096_S8192x4096 _ (ix3 (i 0) (i 1) k)
      (by rw [Shape.rowMajor_val_two, Shape.rowMajor_val_three]; rfl)
  · exact shapeCast_apply x5 shapeCasts_S4096_S1x4096 _ (ix1 (i 2))
      (by rw [Shape.rowMajor_val_one, Shape.rowMajor_val_two]; show (i 2).val = 0 * 4096 + (i 2).val; omega)

/-- The result buffer after the last host line. -/
def result (c : Dev nD) : S4x2048x4096.Idx → EReal :=
  Cert.Spec.linear (m ((c : Thread nD τ).loc main_arg0))
    (Wk (m ((c : Thread nD τ).loc main_arg1)) (m ((c : Thread nD τ).loc main_arg2)) (m ((c : Thread nD τ).loc main_arg3)) (m ((c : Thread nD τ).loc main_arg4)))
    (m ((c : Thread nD τ).loc main_arg5))

theorem tail_eq (c : Dev nD) : Pipeline.afterTail₀ cfgs (dats m) 0 (V0 m) [hostOps1] c main_v18 = result m c := by
  unfold Pipeline.afterTail₀
  show StableHlo.after hostOps1 _ (Proc.devRef .tc main_v18) = _
  after_results
  rw [show Pipeline.withArrays spec0 c (V0 m c) (fun w => (dats m 0 c).arrAt w cfg0.N) (Proc.devRef .tc main_v17) = _ from
    (Pipeline.withArrays_arr spec0 launch0.win.arr_inj c _ _ 2).trans (final m c)]
  rw [V_v14, V_v15, V_v16]
  exact kernel_eq _ _ _

/-- The kernel's run: it terminates, the result buffer holds the linear layer of the dequantized weight matrix,
    and the arguments are unchanged. -/
theorem run : θ_run defs (onTc (τ := τ) (main (F := Ideal))) ⟨m, fun _ => 0, ρ⟩ (fun r => ∀ c : Dev nD,
      r.2.mem ((c.tc : Thread nD τ).loc main_v18) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
     ⟨((h c).2 main_v18 (Pipeline.mem_restRefs_of main_v18 (by decide) (by decide))).trans (tail_eq m c),
      ((h c).2 main_arg0 (Pipeline.mem_restRefs_of main_arg0 (by decide) (by decide))).trans ((W_keep m (dats m) c main_arg0 (by decide) (by decide)).trans (V_main_arg0 m c)),
      ((h c).2 main_arg1 (Pipeline.mem_restRefs_of main_arg1 (by decide) (by decide))).trans ((W_keep m (dats m) c main_arg1 (by decide) (by decide)).trans (V_main_arg1 m c)),
      ((h c).2 main_arg2 (Pipeline.mem_restRefs_of main_arg2 (by decide) (by decide))).trans ((W_keep m (dats m) c main_arg2 (by decide) (by decide)).trans (V_main_arg2 m c)),
      ((h c).2 main_arg3 (Pipeline.mem_restRefs_of main_arg3 (by decide) (by decide))).trans ((W_keep m (dats m) c main_arg3 (by decide) (by decide)).trans (V_main_arg3 m c)),
      ((h c).2 main_arg4 (Pipeline.mem_restRefs_of main_arg4 (by decide) (by decide))).trans ((W_keep m (dats m) c main_arg4 (by decide) (by decide)).trans (V_main_arg4 m c)),
      ((h c).2 main_arg5 (Pipeline.mem_restRefs_of main_arg5 (by decide) (by decide))).trans ((W_keep m (dats m) c main_arg5 (by decide) (by decide)).trans (V_main_arg5 m c))⟩)
    (run_main m ρ)

end Cert.KernelIdeal.FrameD

end
-- ==== Proof.Ref.lean ====
/-
  The reference is the linear layer of its dequantized weight matrix.

  The reference contracts the last axis of `x` with the last axis of the weight matrix (an einsum
  `bsi,oi->bso`, printed as one `dot_general`) and adds the bias spread over the batch and sequence axes.  Read at
  an entry `(b, s, o)` that is `∑ᵢ x[b,s,i] · W[o,i] + bias[o]`; the weight matrix itself — the codebook rows
  gathered by the assignments, laid out `[4096, 4096]`, scaled by row and by column — is left as the host
  operations' own term, since the kernel builds it by the same operations.
-/
import proofs.«130494_j30803505447137_2_alg».proof.Proof.Gen.ReferenceIdeal.Read
import proofs.«130494_j30803505447137_2_alg».proof.Proof.Spec

noncomputable section

namespace Cert.RefSide

open Cert.ReferenceIdeal Cert.ReferenceIdeal.Gen Cert.ReferenceIdeal.Read
open Idealize.ShloMosaic Idealize.ShloMosaic.TcCoe Idealize.ShloMosaic.ValueIdx

theorem lidx_eq (i : S4x2048x4096.Idx) (k : Fin 4096) : lidx_main_v14 i k = ix3 (i 0) (i 1) k :=
  funext fun a => Fin.ext (by match a with | ⟨0, _⟩ => rfl | ⟨1, _⟩ => rfl | ⟨2, _⟩ => rfl)
theorem ridx_eq (i : S4x2048x4096.Idx) (k : Fin 4096) : ridx_main_v14 i k = ix2 (i 2) k :=
  funext fun a => Fin.ext (by match a with | ⟨0, _⟩ => rfl | ⟨1, _⟩ => rfl)
theorem bidx_eq (i : S4x2048x4096.Idx) : idx_main_v15 (idx_main_v16 i) = ix1 (i 2) :=
  funext fun a => Fin.ext (by match a with | ⟨0, _⟩ => rfl)

/-- The reference's result, entry by entry. -/
theorem ref_eq (x0 : (⟨S4x2048x4096, .f32⟩ : BufTy).Contents (Elt Ideal)) (x1 : (⟨S4096x4, .f32⟩ : BufTy).Contents (Elt Ideal))
    (x2 : (⟨S4096x1024, .i32⟩ : BufTy).Contents (Elt Ideal)) (x3 x4 x5 : (⟨S4096, .f32⟩ : BufTy).Contents (Elt Ideal)) :
    val_main_v17 (F := Ideal) x0 x1 x2 x3 x4 x5 = Cert.Spec.linear x0 (val_main_v13 (F := Ideal) x1 x2 x3 x4) x5 := by
  funext i
  rw [val_main_v17_apply, val_main_v14_apply, val_main_v16_apply, val_main_v15_apply]
  simp only [lidx_eq, ridx_eq, bidx_eq]
  rfl

end Cert.RefSide

end
-- ==== Proof.lean ====
/-
  A vector-quantized linear layer, kernel against reference, on the extended reals.

  Both programs dequantize the weight matrix by the same host operations — codebook rows gathered by the
  assignments, laid out `[4096, 4096]`, scaled by row and by column — and then compute
  `out[b, s, o] = ∑ᵢ x[b, s, i] · W[o, i] + bias[o]`.  The reference does it by one contraction over the whole
  arrays.  The kernel walks a `2 × 16` grid of `512 × 2048` output tiles, keeping the 2048 weight rows of the
  current half in a scratch buffer: the first tile of a half copies them in from HBM by four transfers, one per band
  of 1024 columns, multiplying band by band as they arrive; the other fifteen tiles of the half reuse the buffer.
  On the extended reals addition is associative and commutative whatever the entries, so four band sums added to
  zero are the whole sum, a bf16 cast is the identity, and the two results agree entry by entry with no appeal to the
  inputs' finiteness.

  The three frames: the kernel's (at the word level and idealized) is the launch of the tile body at every grid
  point, every transfer waited for within its point; the reference's is its run with the result dropped.  The
  idealization rewrote nothing, so nothing is to be preserved.
-/
import proofs.«130494_j30803505447137_2_alg».proof.Defs
import proofs.«130494_j30803505447137_2_alg».proof.Proof.Gen.Kernel
import proofs.«130494_j30803505447137_2_alg».proof.Proof.Gen.KernelIdeal
import proofs.«130494_j30803505447137_2_alg».proof.Proof.Gen.ReferenceIdeal
import proofs.«130494_j30803505447137_2_alg».proof.Proof.Gen.Pre_finite_inputs
import proofs.«130494_j30803505447137_2_alg».proof.Proof.Gen.ReferenceIdeal.Run
import proofs.«130494_j30803505447137_2_alg».proof.Proof.Gen.ReferenceIdeal.Read
import proofs.«130494_j30803505447137_2_alg».proof.Proof.KB.Body
import proofs.«130494_j30803505447137_2_alg».proof.Proof.KI.Value
import proofs.«130494_j30803505447137_2_alg».proof.Proof.Ref
import Idealize.ShloMosaic.Adequacy
import Idealize.ShloMosaic.Init

noncomputable section

namespace Cert.Proof

open Idealize.ShloMosaic Idealize.SL.Sem

theorem frame_k : Cert.frame_Kernel := fun m ρ _ => Cert.Kernel.FrameD.frame m ρ

theorem frame_ki : Cert.frame_KernelIdeal := fun m ρ _ => Cert.KernelIdeal.FrameD.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the linear layer of the dequantized weight matrix: the kernel's result tile by tile, the
    reference's by its one contraction; the weight matrix is the same term of the arguments in both. -/
theorem algebraic : Cert.algebraic_KernelIdeal_ReferenceIdeal := by
  intro m ρ m' ρ' _ hagree
  refine ⟨fun c => Cert.KernelIdeal.FrameD.result m c, Cert.KernelIdeal.FrameD.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.RefSide.ref_eq, (hagree c).1, (hagree c).2.1, (hagree c).2.2.1,
    (hagree c).2.2.2.1, (hagree c).2.2.2.2.1, (hagree c).2.2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
